-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16
  ∧ IdealRules.truncf_extf.Statement Cert.KernelIdeal.S1x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x33x512x2 : Shape := ⟨4, ![16, 33, 512, 2]⟩
abbrev S_ : Shape := ⟨0, ![]⟩

class Facts : Prop where
  bcast_S_S16x33x512x2 : S_.BroadcastsInDim S16x33x512x2 (![] : Fin 0 → Fin S16x33x512x2.rank)
  reducesTo_S16x33x512x2_S_d0_1_2_3 : S16x33x512x2.ReducesTo [0, 1, 2, 3] S_
  h_S_ : 0 < S_.numel

variable [Facts]

def fn {F : FTy → Type} [FloatOps F] (main_arg0 : FVec F S16x33x512x2 .f32) (main_arg1 : FVec F S16x33x512x2 .f32) : IVec S_ 1 :=
  let main_v0 : FVec F S16x33x512x2 .f32 := Host.absf main_arg0
  let main_cst : FVec F S_ .f32 := constant S_ .f32 0x7F800000#32
  let main_v1 : FVec F S16x33x512x2 .f32 := broadcastInDim S16x33x512x2 ![] bcast_S_S16x33x512x2 main_cst
  let main_v2 : IVec S16x33x512x2 1 := cmpf .olt main_v0 main_v1
  let main_c : IVec S_ 1 := constantI S_ 1 1#1
  let main_v3 : IVec S_ 1 := (fun x v => Host.reduce IntOp.andi x v reducesTo_S16x33x512x2_S_d0_1_2_3 h_S_) main_v2 main_c
  let main_v4 : FVec F S16x33x512x2 .f32 := Host.absf main_arg1
  let main_cst_0 : FVec F S_ .f32 := constant S_ .f32 0x7F800000#32
  let main_v5 : FVec F S16x33x512x2 .f32 := broadcastInDim S16x33x512x2 ![] bcast_S_S16x33x512x2 main_cst_0
  let main_v6 : IVec S16x33x512x2 1 := cmpf .olt main_v4 main_v5
  let main_c_1 : IVec S_ 1 := constantI S_ 1 1#1
  let main_v7 : IVec S_ 1 := (fun x v => Host.reduce IntOp.andi x v reducesTo_S16x33x512x2_S_d0_1_2_3 h_S_) main_v6 main_c_1
  let main_v8 : IVec S_ 1 := andi main_v3 main_v7
  main_v8
-- ==== Kernel.lean ====
abbrev S16x33x512x2 : Shape := ⟨4, ![16, 33, 512, 2]⟩
abbrev S16x33x2x512 : Shape := ⟨4, ![16, 33, 2, 512]⟩
abbrev S16x32x2x512 : Shape := ⟨4, ![16, 32, 2, 512]⟩
abbrev S16x1x8x128 : Shape := ⟨4, ![16, 1, 8, 128]⟩
abbrev S1x32x2x512 : Shape := ⟨4, ![1, 32, 2, 512]⟩
abbrev S1x1x8x128 : Shape := ⟨4, ![1, 1, 8, 128]⟩
abbrev S1x512 : Shape := ⟨2, ![1, 512]⟩
abbrev S1x1x2x512 : Shape := ⟨4, ![1, 1, 2, 512]⟩
abbrev S2x512 : Shape := ⟨2, ![2, 512]⟩
abbrev S8x512 : Shape := ⟨2, ![8, 512]⟩
abbrev S512x512 : Shape := ⟨2, ![512, 512]⟩
abbrev S512x256 : Shape := ⟨2, ![512, 256]⟩
abbrev S512x128 : Shape := ⟨2, ![512, 128]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S4x512 : Shape := ⟨2, ![4, 512]⟩
abbrev S256x512 : Shape := ⟨2, ![256, 512]⟩
abbrev S1x1x512 : Shape := ⟨3, ![1, 1, 512]⟩
abbrev S1 : Shape := ⟨1, ![1]⟩
abbrev S1x1x1 : Shape := ⟨3, ![1, 1, 1]⟩
abbrev S16x1x1x1 : Shape := ⟨4, ![16, 1, 1, 1]⟩
abbrev S16x1 : Shape := ⟨2, ![16, 1]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S16x33x512x2, .f32⟩
  | .hbm, ⟨1, _⟩ => ⟨S16x33x512x2, .f32⟩
  | .hbm, ⟨2, _⟩ => ⟨S16x33x2x512, .f32⟩
  | .hbm, ⟨3, _⟩ => ⟨S16x33x2x512, .f32⟩
  | .hbm, ⟨4, _⟩ => ⟨S16x32x2x512, .f32⟩
  | .hbm, ⟨5, _⟩ => ⟨S16x32x2x512, .f32⟩
  | .hbm, ⟨6, _⟩ => ⟨S16x32x2x512, .f32⟩
  | .hbm, ⟨7, _⟩ => ⟨S16x1x8x128, .f32⟩
  | .hbm, ⟨8, _⟩ => ⟨S16x1x1x1, .f32⟩
  | .hbm, ⟨9, _⟩ => ⟨S16x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x32x2x512, .f32⟩
  | .local _ .vmem, ⟨1, _⟩ => ⟨S1x32x2x512, .f32⟩
  | .local _ .vmem, ⟨2, _⟩ => ⟨S1x32x2x512, .f32⟩
  | .local _ .vmem, ⟨3, _⟩ => ⟨S1x32x2x512, .f32⟩
  | .local _ .vmem, ⟨4, _⟩ => ⟨S1x32x2x512, .f32⟩
  | .local _ .vmem, ⟨5, _⟩ => ⟨S1x32x2x512, .f32⟩
  | .local _ .vmem, ⟨6, _⟩ => ⟨S1x1x8x128, .f32⟩
  | .local _ .vmem, ⟨7, _⟩ => ⟨S1x1x8x128, .f32⟩
  | _, _ => ⟨S16x33x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16x33x512x2_S16x33x2x512_0_1_3_2 : S16x33x512x2.Transposes [0, 1, 3, 2] S16x33x2x512
  slices_S16x33x2x512_S16x32x2x512_0_0_0_0 : S16x33x2x512.Slices ![0, 0, 0, 0] S16x32x2x512
  slices_S16x33x2x512_S16x32x2x512_0_1_0_0 : S16x33x2x512.Slices ![0, 1, 0, 0] S16x32x2x512
  inb_S1x32x2x512_S1x1x2x512_0_0_0_0 : ∀ a, (![0, 0, 0, 0] : Fin 4 → Nat) a + S1x1x2x512.size a ≤ S1x32x2x512.size a
  h_S1x1x2x512 : 0 < S1x1x2x512.numel
  shapeCasts_S1x1x2x512_S2x512 : S1x1x2x512.ShapeCasts S2x512
  slices_S2x512_o0_0_S1x512 : S2x512.Slices ![0, 0] S1x512
  slices_S2x512_o1_0_S1x512 : S2x512.Slices ![1, 0] S1x512
  bitsLt_bf16_f32 : FTy.bits .bf16 < FTy.bits .f32
  concatenates_S1x512_S1x512_S1x512_S1x512_S1x512_S1x512_S1x512_S1x512_S8x512_d0 : Shape.Concatenates [S1x512, S1x512, S1x512, S1x512, S1x512, S1x512, S1x512, S1x512] S8x512 0
  concatenates_S2x512_S1x512_S1x512_S1x512_S1x512_S1x512_S1x512_S8x512_d0 : Shape.Concatenates [S2x512, S1x512, S1x512, S1x512, S1x512, S1x512, S1x512] S8x512 0
  slices_S512x512_o0_0_S512x256 : S512x512.Slices ![0, 0] S512x256
  slices_S512x512_o0_256_S512x256 : S512x512.Slices ![0, 256] S512x256
  slices_S512x256_o0_0_S512x128 : S512x256.Slices ![0, 0] S512x128
  slices_S512x256_o0_128_S512x128 : S512x256.Slices ![0, 128] S512x128
  transposes_S512x128_p1_0_S128x512 : S512x128.Transposes [1, 0] S128x512
  slices_S128x512_o0_0_S64x512 : S128x512.Slices ![0, 0] S64x512
  slices_S128x512_o64_0_S64x512 : S128x512.Slices ![64, 0] S64x512
  slices_S64x512_o0_0_S32x512 : S64x512.Slices ![0, 0] S32x512
  slices_S64x512_o32_0_S32x512 : S64x512.Slices ![32, 0] S32x512
  slices_S32x512_o0_0_S16x512 : S32x512.Slices ![0, 0] S16x512
  slices_S32x512_o16_0_S16x512 : S32x512.Slices ![16, 0] S16x512
  slices_S16x512_o0_0_S8x512 : S16x512.Slices ![0, 0] S8x512
  slices_S16x512_o8_0_S8x512 : S16x512.Slices ![8, 0] S8x512
  slices_S8x512_o0_0_S4x512 : S8x512.Slices ![0, 0] S4x512
  slices_S8x512_o4_0_S4x512 : S8x512.Slices ![4, 0] S4x512
  slices_S4x512_o0_0_S2x512 : S4x512.Slices ![0, 0] S2x512
  slices_S4x512_o2_0_S2x512 : S4x512.Slices ![2, 0] S2x512
  slices_S512x512_o0_0_S256x512 : S512x512.Slices ![0, 0] S256x512
  slices_S512x512_o256_0_S256x512 : S512x512.Slices ![256, 0] S256x512
  slices_S256x512_o0_0_S128x512 : S256x512.Slices ![0, 0] S128x512
  slices_S256x512_o128_0_S128x512 : S256x512.Slices ![128, 0] S128x512
  inb_S1x32x2x512_S1x1x2x512_0_1_0_0 : ∀ a, (![0, 1, 0, 0] : Fin 4 → Nat) a + S1x1x2x512.size a ≤ S1x32x2x512.size a
  inb_S1x32x2x512_S1x1x2x512_0_2_0_0 : ∀ a, (![0, 2, 0, 0] : Fin 4 → Nat) a + S1x1x2x512.size a ≤ S1x32x2x512.size a
  inb_S1x32x2x512_S1x1x2x512_0_3_0_0 : ∀ a, (![0, 3, 0, 0] : Fin 4 → Nat) a + S1x1x2x512.size a ≤ S1x32x2x512.size a
  inb_S1x32x2x512_S1x1x2x512_0_4_0_0 : ∀ a, (![0, 4, 0, 0] : Fin 4 → Nat) a + S1x1x2x512.size a ≤ S1x32x2x512.size a
  inb_S1x32x2x512_S1x1x2x512_0_5_0_0 : ∀ a, (![0, 5, 0, 0] : Fin 4 → Nat) a + S1x1x2x512.size a ≤ S1x32x2x512.size a
  inb_S1x32x2x512_S1x1x2x512_0_6_0_0 : ∀ a, (![0, 6, 0, 0] : Fin 4 → Nat) a + S1x1x2x512.size a ≤ S1x32x2x512.size a
  inb_S1x32x2x512_S1x1x2x512_0_7_0_0 : ∀ a, (![0, 7, 0, 0] : Fin 4 → Nat) a + S1x1x2x512.size a ≤ S1x32x2x512.size a
  inb_S1x32x2x512_S1x1x2x512_0_8_0_0 : ∀ a, (![0, 8, 0, 0] : Fin 4 → Nat) a + S1x1x2x512.size a ≤ S1x32x2x512.size a
  inb_S1x32x2x512_S1x1x2x512_0_9_0_0 : ∀ a, (![0, 9, 0, 0] : Fin 4 → Nat) a + S1x1x2x512.size a ≤ S1x32x2x512.size a
  inb_S1x32x2x512_S1x1x2x512_0_10_0_0 : ∀ a, (![0, 10, 0, 0] : Fin 4 → Nat) a + S1x1x2x512.size a ≤ S1x32x2x512.size a
  inb_S1x32x2x512_S1x1x2x512_0_11_0_0 : ∀ a, (![0, 11, 0, 0] : Fin 4 → Nat) a + S1x1x2x512.size a ≤ S1x32x2x512.size a
  inb_S1x32x2x512_S1x1x2x512_0_12_0_0 : ∀ a, (![0, 12, 0, 0] : Fin 4 → Nat) a + S1x1x2x512.size a ≤ S1x32x2x512.size a
  inb_S1x32x2x512_S1x1x2x512_0_13_0_0 : ∀ a, (![0, 13, 0, 0] : Fin 4 → Nat) a + S1x1x2x512.size a ≤ S1x32x2x512.size a
  inb_S1x32x2x512_S1x1x2x512_0_14_0_0 : ∀ a, (![0, 14, 0, 0] : Fin 4 → Nat) a + S1x1x2x512.size a ≤ S1x32x2x512.size a
  inb_S1x32x2x512_S1x1x2x512_0_15_0_0 : ∀ a, (![0, 15, 0, 0] : Fin 4 → Nat) a + S1x1x2x512.size a ≤ S1x32x2x512.size a
  inb_S1x32x2x512_S1x1x2x512_0_16_0_0 : ∀ a, (![0, 16, 0, 0] : Fin 4 → Nat) a + S1x1x2x512.size a ≤ S1x32x2x512.size a
  inb_S1x32x2x512_S1x1x2x512_0_17_0_0 : ∀ a, (![0, 17, 0, 0] : Fin 4 → Nat) a + S1x1x2x512.size a ≤ S1x32x2x512.size a
  inb_S1x32x2x512_S1x1x2x512_0_18_0_0 : ∀ a, (![0, 18, 0, 0] : Fin 4 → Nat) a + S1x1x2x512.size a ≤ S1x32x2x512.size a
  inb_S1x32x2x512_S1x1x2x512_0_19_0_0 : ∀ a, (![0, 19, 0, 0] : Fin 4 → Nat) a + S1x1x2x512.size a ≤ S1x32x2x512.size a
  inb_S1x32x2x512_S1x1x2x512_0_20_0_0 : ∀ a, (![0, 20, 0, 0] : Fin 4 → Nat) a + S1x1x2x512.size a ≤ S1x32x2x512.size a
  inb_S1x32x2x512_S1x1x2x512_0_21_0_0 : ∀ a, (![0, 21, 0, 0] : Fin 4 → Nat) a + S1x1x2x512.size a ≤ S1x32x2x512.size a
  inb_S1x32x2x512_S1x1x2x512_0_22_0_0 : ∀ a, (![0, 22, 0, 0] : Fin 4 → Nat) a + S1x1x2x512.size a ≤ S1x32x2x512.size a
  inb_S1x32x2x512_S1x1x2x512_0_23_0_0 : ∀ a, (![0, 23, 0, 0] : Fin 4 → Nat) a + S1x1x2x512.size a ≤ S1x32x2x512.size a
  inb_S1x32x2x512_S1x1x2x512_0_24_0_0 : ∀ a, (![0, 24, 0, 0] : Fin 4 → Nat) a + S1x1x2x512.size a ≤ S1x32x2x512.size a
  inb_S1x32x2x512_S1x1x2x512_0_25_0_0 : ∀ a, (![0, 25, 0, 0] : Fin 4 → Nat) a + S1x1x2x512.size a ≤ S1x32x2x512.size a
  inb_S1x32x2x512_S1x1x2x512_0_26_0_0 : ∀ a, (![0, 26, 0, 0] : Fin 4 → Nat) a + S1x1x2x512.size a ≤ S1x32x2x512.size a
  inb_S1x32x2x512_S1x1x2x512_0_27_0_0 : ∀ a, (![0, 27, 0, 0] : Fin 4 → Nat) a + S1x1x2x512.size a ≤ S1x32x2x512.size a
  inb_S1x32x2x512_S1x1x2x512_0_28_0_0 : ∀ a, (![0, 28, 0, 0] : Fin 4 → Nat) a + S1x1x2x512.size a ≤ S1x32x2x512.size a
  inb_S1x32x2x512_S1x1x2x512_0_29_0_0 : ∀ a, (![0, 29, 0, 0] : Fin 4 → Nat) a + S1x1x2x512.size a ≤ S1x32x2x512.size a
  inb_S1x32x2x512_S1x1x2x512_0_30_0_0 : ∀ a, (![0, 30, 0, 0] : Fin 4 → Nat) a + S1x1x2x512.size a ≤ S1x32x2x512.size a
  inb_S1x32x2x512_S1x1x2x512_0_31_0_0 : ∀ a, (![0, 31, 0, 0] : Fin 4 → Nat) a + S1x1x2x512.size a ≤ S1x32x2x512.size a
  shapeCasts_S1x512_S1x1x512 : S1x512.ShapeCasts S1x1x512
  reduces_S1x1x512_S1 : S1x1x512.Reduces [1, 2] S1
  shapeCasts_S1_S1x1x1 : S1.ShapeCasts S1x1x1
  inpos_S1x1x1_p0_0_0 : ∀ a, (![0, 0, 0] : Fin 3 → Nat) a < S1x1x1.size a
  inb_S1x1x8x128_S1x1x8x128_0_0_0_0 : ∀ a, (![0, 0, 0, 0] : Fin 4 → Nat) a + S1x1x8x128.size a ≤ S1x1x8x128.size a
  h_S1x1x8x128 : 0 < S1x1x8x128.numel
  slices_S16x1x8x128_S16x1x1x1_0_0_0_0 : S16x1x8x128.Slices ![0, 0, 0, 0] S16x1x1x1
  shapeCasts_S16x1x1x1_S16x1 : S16x1x1x1.ShapeCasts S16x1
  reducesTo_S16x1_S_d0_1 : S16x1.ReducesTo [0, 1] S_
  h_S_ : 0 < S_.numel
  dot_S8x512_S8x512_S512x512_0_0_1_1_n_n_wf : DotDims.WF S8x512 S8x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x2x512.size a ≤ S16x32x2x512.size a
  hwx0_0 : ∀ i : grid0.Coords, EltTy.bits .f32 = 32 ∨ (Rect.block (s := S16x32x2x512) S1x32x2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x2x512.size a ≤ S16x32x2x512.size a
  hwx0_1 : ∀ i : grid0.Coords, EltTy.bits .f32 = 32 ∨ (Rect.block (s := S16x32x2x512) S1x32x2x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x512.size a ≤ S16x32x2x512.size a
  hwx0_2 : ∀ i : grid0.Coords, EltTy.bits .f32 = 32 ∨ (Rect.block (s := S16x32x2x512) S1x32x2x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x128.size a ≤ S16x1x8x128.size a
  hwx0_3 : ∀ i : grid0.Coords, EltTy.bits .f32 = 32 ∨ (Rect.block (s := S16x1x8x128) S1x1x8x128.size (cc0_transform_3 i) (hinb0_3 i)).WholeWords (EltTy.packing .f32)

variable [Facts₀]

def dot_S8x512_S8x512_S512x512_0_0_1_1_n_n : DotDims S8x512 S8x512 S512x512 where
  lhsContracting := [0]
  rhsContracting := [0]
  lhsNonContracting := [1]
  rhsNonContracting := [1]
  lhsBatch := []
  rhsBatch := []
  wf := dot_S8x512_S8x512_S512x512_0_0_1_1_n_n_wf

abbrev win0_0 : Pipeline.Window sig grid0 :=
  Pipeline.Window.ofSpec (Memref.whole main_v2) S1x32x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x32x2x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32x2x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x33x512x2 : Shape := ⟨4, ![16, 33, 512, 2]⟩
abbrev S16x33x512x1 : Shape := ⟨4, ![16, 33, 512, 1]⟩
abbrev S16x33x512 : Shape := ⟨3, ![16, 33, 512]⟩
abbrev S_ : Shape := ⟨0, ![]⟩
abbrev S16x32x512x2 : Shape := ⟨4, ![16, 32, 512, 2]⟩
abbrev S16x32x512 : Shape := ⟨3, ![16, 32, 512]⟩
abbrev S16x32x512x512 : Shape := ⟨4, ![16, 32, 512, 512]⟩
abbrev S16x32x512x1 : Shape := ⟨4, ![16, 32, 512, 1]⟩
abbrev S16x32x1x512 : Shape := ⟨4, ![16, 32, 1, 512]⟩
abbrev S32 : Shape := ⟨1, ![32]⟩

abbrev nBuf : Space → Nat
  | .hbm => 70
  | .vmem => 0
  | .smem => 0
  | _ => 0

abbrev bufTy : (tb : Table) → Fin (tcTables nBuf tb) → BufTy
  | .hbm, ⟨0, _⟩ => ⟨S16x33x512x2, .f32⟩
  | .hbm, ⟨1, _⟩ => ⟨S16x33x512x2, .f32⟩
  | .hbm, ⟨2, _⟩ => ⟨S16x33x512x2, .f32⟩
  | .hbm, ⟨3, _⟩ => ⟨S16x33x512x1, .f32⟩
  | .hbm, ⟨4, _⟩ => ⟨S16x33x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x33x512, .f32⟩
  | .hbm, ⟨9, _⟩ => ⟨S16x33x512, .f32⟩
  | .hbm, ⟨10, _⟩ => ⟨S_, .f32⟩
  | .hbm, ⟨11, _⟩ => ⟨S16x33x512, .f32⟩
  | .hbm, ⟨12, _⟩ => ⟨S16x33x512, .f32⟩
  | .hbm, ⟨13, _⟩ => ⟨S16x33x512x1, .f32⟩
  | .hbm, ⟨14, _⟩ => ⟨S16x33x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x33x512, .f32⟩
  | .hbm, ⟨19, _⟩ => ⟨S16x33x512, .f32⟩
  | .hbm, ⟨20, _⟩ => ⟨S_, .f32⟩
  | .hbm, ⟨21, _⟩ => ⟨S16x33x512, .f32⟩
  | .hbm, ⟨22, _⟩ => ⟨S16x33x512, .f32⟩
  | .hbm, ⟨23, _⟩ => ⟨S16x33x512x1, .f32⟩
  | .hbm, ⟨24, _⟩ => ⟨S16x33x512x1, .f32⟩
  | .hbm, ⟨25, _⟩ => ⟨S16x33x512x2, .f32⟩
  | .hbm, ⟨26, _⟩ => ⟨S16x32x512x2, .f32⟩
  | .hbm, ⟨27, _⟩ => ⟨S16x32x512x2, .f32⟩
  | .hbm, ⟨28, _⟩ => ⟨S16x32x512x2, .f32⟩
  | .hbm, ⟨29, _⟩ => ⟨S_, .f32⟩
  | .hbm, ⟨30, _⟩ => ⟨S16x32x512, .f32⟩
  | .hbm, ⟨31, _⟩ => ⟨S16x32x512x2, .f32⟩
  | .hbm, ⟨32, _⟩ => ⟨S_, .f32⟩
  | .hbm, ⟨33, _⟩ => ⟨S16x32x512, .f32⟩
  | .hbm, ⟨34, _⟩ => ⟨S16x32x512x512, .f32⟩
  | .hbm, ⟨35, _⟩ => ⟨S16x32x512x1, .f32⟩
  | .hbm, ⟨36, _⟩ => ⟨S16x32x1x512, .f32⟩
  | .hbm, ⟨37, _⟩ => ⟨S16x32x512x512, .f32⟩
  | .hbm, ⟨38, _⟩ => ⟨S16x32x512x512, .f32⟩
  | .hbm, ⟨39, _⟩ => ⟨S16x32x512x512, .f32⟩
  | .hbm, ⟨40, _⟩ => ⟨S_, .f32⟩
  | .hbm, ⟨41, _⟩ => ⟨S16x32x512x512, .f32⟩
  | .hbm, ⟨42, _⟩ => ⟨S16x32x512x512, .f32⟩
  | .hbm, ⟨43, _⟩ => ⟨S16x32x512x512, .f32⟩
  | .hbm, ⟨44, _⟩ => ⟨S_, .f32⟩
  | .hbm, ⟨45, _⟩ => ⟨S16x32x512x512, .f32⟩
  | .hbm, ⟨46, _⟩ => ⟨S16x32x512x512, .f32⟩
  | .hbm, ⟨47, _⟩ => ⟨S16x32x512x512, .f32⟩
  | .hbm, ⟨48, _⟩ => ⟨S_, .f32⟩
  | .hbm, ⟨49, _⟩ => ⟨S16x32x512, .f32⟩
  | .hbm, ⟨50, _⟩ => ⟨S_, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S16x32x512, .f32⟩
  | .hbm, ⟨57, _⟩ => ⟨S_, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16x33x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  slices_S16x33x512x2_S16x33x512x1_0_0_0_0 : S16x33x512x2.Slices ![0, 0, 0, 0] S16x33x512x1
  shapeCasts_S16x33x512x1_S16x33x512 : S16x33x512x1.ShapeCasts S16x33x512
  bcast_S_S16x33x512 : S_.BroadcastsInDim S16x33x512 (![] : Fin 0 → Fin S16x33x512.rank)
  slices_S16x33x512x2_S16x33x512x1_0_0_0_1 : S16x33x512x2.Slices ![0, 0, 0, 1] S16x33x512x1
  bcast_S16x33x512_S16x33x512x1_0_1_2 : S16x33x512.BroadcastsInDim S16x33x512x1 (![0, 1, 2] : Fin 3 → Fin S16x33x512x1.rank)
  concatenates_S16x33x512x1_S16x33x512x1_S16x33x512x2_d3 : Shape.Concatenates [S16x33x512x1, S16x33x512x1] S16x33x512x2 3
  slices_S16x33x512x2_S16x32x512x2_0_0_0_0 : S16x33x512x2.Slices ![0, 0, 0, 0] S16x32x512x2
  slices_S16x33x512x2_S16x32x512x2_0_1_0_0 : S16x33x512x2.Slices ![0, 1, 0, 0] S16x32x512x2
  reducesTo_S16x32x512x2_S16x32x512_d3 : S16x32x512x2.ReducesTo [3] S16x32x512
  h_S_ : 0 < S_.numel
  bcast_S16x32x512_S16x32x512x1_0_1_2 : S16x32x512.BroadcastsInDim S16x32x512x1 (![0, 1, 2] : Fin 3 → Fin S16x32x512x1.rank)
  bcast_S16x32x512_S16x32x1x512_0_1_3 : S16x32x512.BroadcastsInDim S16x32x1x512 (![0, 1, 3] : Fin 3 → Fin S16x32x1x512.rank)
  bcast_S16x32x512x1_S16x32x512x512_0_1_2_3 : S16x32x512x1.BroadcastsInDim S16x32x512x512 (![0, 1, 2, 3] : Fin 4 → Fin S16x32x512x512.rank)
  bcast_S16x32x1x512_S16x32x512x512_0_1_2_3 : S16x32x1x512.BroadcastsInDim S16x32x512x512 (![0, 1, 2, 3] : Fin 4 → Fin S16x32x512x512.rank)
  bcast_S_S16x32x512x512 : S_.BroadcastsInDim S16x32x512x512 (![] : Fin 0 → Fin S16x32x512x512.rank)
  reducesTo_S16x32x512x512_S16x32x512_d3 : S16x32x512x512.ReducesTo [3] S16x32x512
  reducesTo_S16x32x512_S32_d0_2 : S16x32x512.ReducesTo [0, 2] S32
  bcast_S_S32 : S_.BroadcastsInDim S32 (![] : Fin 0 → Fin S32.rank)
  reducesTo_S16x32x512x512_S16x32x512_d2 : S16x32x512x512.ReducesTo [2] S16x32x512
  reducesTo_S32_S_d0 : S32.ReducesTo [0] S_
  dot_S16x32x512x2_S16x32x512x2_S16x32x512x512_3_3_2_2_01_01_wf : DotDims.WF S16x32x512x2 S16x32x512x2 S16x32x512x512 [3] [3] [2] [2] [0, 1] [0, 1]

variable [Facts₀]

def dot_S16x32x512x2_S16x32x512x2_S16x32x512x512_3_3_2_2_01_01 : DotDims S16x32x512x2 S16x32x512x2 S16x32x512x512 where
  lhsContracting := [3]
  rhsContracting := [3]
  lhsNonContracting := [2]
  rhsNonContracting := [2]
  lhsBatch := [0, 1]
  rhsBatch := [0, 1]
  wf := dot_S16x32x512x2_S16x32x512x2_S16x32x512x512_3_3_2_2_01_01_wf

class Facts : Prop extends Facts₀ where

variable [Facts]
-- ==== Proof.Step.lean ====
/- One timestep of the chamfer kernel as three functions of the loaded blocks — the
   squared-distance matrix, its row minima and its column minima — and the closing
   reduction, each the kernel's own sequence of vector operations. -/
import proofs.«181722_g55396488184381_feedfinal_273_31_alg».proof.KernelIdeal

set_option synthInstance.maxSize 4096

noncomputable section

namespace Cert.KernelIdeal.Chamfer

open Idealize.ShloMosaic Idealize.SL.Sem
open Cert.KernelIdeal Cert.KernelIdeal.Facts₀ Cert.KernelIdeal.Facts

variable {F : FTy → Type} [FloatOps F] [Cert.KernelIdeal.Facts]

/-- The 512×512 matrix of one timestep: entry (i, j) is the squared distance between the
    clipped shifted point i and the target point j, computed as one product contracting
    eight rows (−2·x, −2·y, the squared norm of the shifted point split in three and three
    ones on the left; the target's coordinates, three ones and its squared norm split in
    three on the right). -/
def dist (v2 v4 v6 : Vec F S1x1x2x512 .f32) : FVec F S512x512 .f32 :=
  have v3 : FVec F S2x512 .f32 := shapeCast S2x512 v2 shapeCasts_S1x1x2x512_S2x512
  have v5 : FVec F S2x512 .f32 := shapeCast S2x512 v4 shapeCasts_S1x1x2x512_S2x512
  have v7 : FVec F S2x512 .f32 := shapeCast S2x512 v6 shapeCasts_S1x1x2x512_S2x512
  have v8 : FVec F S2x512 .f32 := addf v3 v5
  have v9 : FVec F S1x512 .f32 := extractStridedSlice S1x512 ![0, 0] v8 slices_S2x512_o0_0_S1x512
  have cst_12 : F .f32 := Scalar.ofBits .f32 0x00000000#32
  have cst_13 : F .f32 := Scalar.ofBits .f32 0x44870000#32
  have v10 : FVec F S1x512 .f32 := broadcast S1x512 cst_12
  have v11 : FVec F S1x512 .f32 := maximumf v10 v9
  have v12 : FVec F S1x512 .f32 := broadcast S1x512 cst_13
  have v13 : FVec F S1x512 .f32 := minimumf v12 v11
  have v14 : FVec F S1x512 .f32 := extractStridedSlice S1x512 ![1, 0] v8 slices_S2x512_o1_0_S1x512
  have cst_14 : F .f32 := Scalar.ofBits .f32 0x00000000#32
  have cst_15 : F .f32 := Scalar.ofBits .f32 0x44F00000#32
  have v15 : FVec F S1x512 .f32 := broadcast S1x512 cst_14
  have v16 : FVec F S1x512 .f32 := maximumf v15 v14
  have v17 : FVec F S1x512 .f32 := broadcast S1x512 cst_15
  have v18 : FVec F S1x512 .f32 := minimumf v17 v16
  have v19 : FVec F S1x512 .f32 := extractStridedSlice S1x512 ![0, 0] v7 slices_S2x512_o0_0_S1x512
  have v20 : FVec F S1x512 .f32 := extractStridedSlice S1x512 ![1, 0] v7 slices_S2x512_o1_0_S1x512
  have v21 : FVec F S1x512 .f32 := mulf v13 v13
  have v22 : FVec F S1x512 .f32 := mulf v18 v18
  have v23 : FVec F S1x512 .f32 := addf v21 v22
  have v24 : FVec F S1x512 .f32 := mulf v19 v19
  have v25 : FVec F S1x512 .f32 := mulf v20 v20
  have v26 : FVec F S1x512 .f32 := addf v24 v25
  have cst_16 : F .bf16 := Scalar.ofBits .bf16 0x3F80#16
  have v27 : FVec F S1x512 .bf16 := broadcast S1x512 cst_16
  have v28 : FVec F S1x512 .bf16 := truncf .bf16 v23 bitsLt_bf16_f32
  have v29 : FVec F S1x512 .f32 := v23
  have v30 : FVec F S1x512 .f32 := subf v23 v29
  have v31 : FVec F S1x512 .bf16 := truncf .bf16 v30 bitsLt_bf16_f32
  have v32 : FVec F S1x512 .f32 := v30
  have v33 : FVec F S1x512 .f32 := subf v30 v32
  have v34 : FVec F S1x512 .bf16 := truncf .bf16 v33 bitsLt_bf16_f32
  have v35 : FVec F S1x512 .bf16 := truncf .bf16 v26 bitsLt_bf16_f32
  have v36 : FVec F S1x512 .f32 := v26
  have v37 : FVec F S1x512 .f32 := subf v26 v36
  have v38 : FVec F S1x512 .bf16 := truncf .bf16 v37 bitsLt_bf16_f32
  have v39 : FVec F S1x512 .f32 := v37
  have v40 : FVec F S1x512 .f32 := subf v37 v39
  have v41 : FVec F S1x512 .bf16 := truncf .bf16 v40 bitsLt_bf16_f32
  have cst_17 : F .f32 := Scalar.ofBits .f32 0xC0000000#32
  have v42 : FVec F S1x512 .f32 := broadcast S1x512 cst_17
  have v43 : FVec F S1x512 .f32 := mulf v42 v13
  have v44 : FVec F S1x512 .bf16 := truncf .bf16 v43 bitsLt_bf16_f32
  have cst_18 : F .f32 := Scalar.ofBits .f32 0xC0000000#32
  have v45 : FVec F S1x512 .f32 := broadcast S1x512 cst_18
  have v46 : FVec F S1x512 .f32 := mulf v45 v18
  have v47 : FVec F S1x512 .bf16 := truncf .bf16 v46 bitsLt_bf16_f32
  have v48 : FVec F S8x512 .bf16 := concatenate S8x512 0 [⟨S1x512, v44⟩, ⟨S1x512, v47⟩, ⟨S1x512, v28⟩, ⟨S1x512, v31⟩, ⟨S1x512, v34⟩, ⟨S1x512, v27⟩, ⟨S1x512, v27⟩, ⟨S1x512, v27⟩] concatenates_S1x512_S1x512_S1x512_S1x512_S1x512_S1x512_S1x512_S1x512_S8x512_d0
  have v49 : FVec F S2x512 .bf16 := truncf .bf16 v7 bitsLt_bf16_f32
  have v50 : FVec F S8x512 .bf16 := concatenate S8x512 0 [⟨S2x512, v49⟩, ⟨S1x512, v27⟩, ⟨S1x512, v27⟩, ⟨S1x512, v27⟩, ⟨S1x512, v35⟩, ⟨S1x512, v38⟩, ⟨S1x512, v41⟩] concatenates_S2x512_S1x512_S1x512_S1x512_S1x512_S1x512_S1x512_S8x512_d0
  have cst_19 : FVec F S512x512 .f32 := constant S512x512 .f32 0x00000000#32
  have v51 : FVec F S512x512 .f32 := matmul dot_S8x512_S8x512_S512x512_0_0_1_1_n_n none v48 v50 cst_19
  v51

/-- For each row of the matrix its minimum over the columns: two foldings of the lane axis
    in halves, a transposition, then seven foldings of the row axis in halves. -/
def rowMin (v51 : FVec F S512x512 .f32) : FVec F S1x512 .f32 :=
  have v52 : FVec F S512x256 .f32 := extractStridedSlice S512x256 ![0, 0] v51 slices_S512x512_o0_0_S512x256
  have v53 : FVec F S512x256 .f32 := extractStridedSlice S512x256 ![0, 256] v51 slices_S512x512_o0_256_S512x256
  have v54 : FVec F S512x256 .f32 := minimumf v52 v53
  have v55 : FVec F S512x128 .f32 := extractStridedSlice S512x128 ![0, 0] v54 slices_S512x256_o0_0_S512x128
  have v56 : FVec F S512x128 .f32 := extractStridedSlice S512x128 ![0, 128] v54 slices_S512x256_o0_128_S512x128
  have v57 : FVec F S512x128 .f32 := minimumf v55 v56
  have v58 : FVec F S128x512 .f32 := transpose S128x512 [1, 0] v57 transposes_S512x128_p1_0_S128x512
  have v59 : FVec F S64x512 .f32 := extractStridedSlice S64x512 ![0, 0] v58 slices_S128x512_o0_0_S64x512
  have v60 : FVec F S64x512 .f32 := extractStridedSlice S64x512 ![64, 0] v58 slices_S128x512_o64_0_S64x512
  have v61 : FVec F S64x512 .f32 := minimumf v59 v60
  have v62 : FVec F S32x512 .f32 := extractStridedSlice S32x512 ![0, 0] v61 slices_S64x512_o0_0_S32x512
  have v63 : FVec F S32x512 .f32 := extractStridedSlice S32x512 ![32, 0] v61 slices_S64x512_o32_0_S32x512
  have v64 : FVec F S32x512 .f32 := minimumf v62 v63
  have v65 : FVec F S16x512 .f32 := extractStridedSlice S16x512 ![0, 0] v64 slices_S32x512_o0_0_S16x512
  have v66 : FVec F S16x512 .f32 := extractStridedSlice S16x512 ![16, 0] v64 slices_S32x512_o16_0_S16x512
  have v67 : FVec F S16x512 .f32 := minimumf v65 v66
  have v68 : FVec F S8x512 .f32 := extractStridedSlice S8x512 ![0, 0] v67 slices_S16x512_o0_0_S8x512
  have v69 : FVec F S8x512 .f32 := extractStridedSlice S8x512 ![8, 0] v67 slices_S16x512_o8_0_S8x512
  have v70 : FVec F S8x512 .f32 := minimumf v68 v69
  have v71 : FVec F S4x512 .f32 := extractStridedSlice S4x512 ![0, 0] v70 slices_S8x512_o0_0_S4x512
  have v72 : FVec F S4x512 .f32 := extractStridedSlice S4x512 ![4, 0] v70 slices_S8x512_o4_0_S4x512
  have v73 : FVec F S4x512 .f32 := minimumf v71 v72
  have v74 : FVec F S2x512 .f32 := extractStridedSlice S2x512 ![0, 0] v73 slices_S4x512_o0_0_S2x512
  have v75 : FVec F S2x512 .f32 := extractStridedSlice S2x512 ![2, 0] v73 slices_S4x512_o2_0_S2x512
  have v76 : FVec F S2x512 .f32 := minimumf v74 v75
  have v77 : FVec F S1x512 .f32 := extractStridedSlice S1x512 ![0, 0] v76 slices_S2x512_o0_0_S1x512
  have v78 : FVec F S1x512 .f32 := extractStridedSlice S1x512 ![1, 0] v76 slices_S2x512_o1_0_S1x512
  have v79 : FVec F S1x512 .f32 := minimumf v77 v78
  v79

/-- For each column of the matrix its minimum over the rows: nine foldings of the row axis
    in halves. -/
def colMin (v51 : FVec F S512x512 .f32) : FVec F S1x512 .f32 :=
  have v80 : FVec F S256x512 .f32 := extractStridedSlice S256x512 ![0, 0] v51 slices_S512x512_o0_0_S256x512
  have v81 : FVec F S256x512 .f32 := extractStridedSlice S256x512 ![256, 0] v51 slices_S512x512_o256_0_S256x512
  have v82 : FVec F S256x512 .f32 := minimumf v80 v81
  have v83 : FVec F S128x512 .f32 := extractStridedSlice S128x512 ![0, 0] v82 slices_S256x512_o0_0_S128x512
  have v84 : FVec F S128x512 .f32 := extractStridedSlice S128x512 ![128, 0] v82 slices_S256x512_o128_0_S128x512
  have v85 : FVec F S128x512 .f32 := minimumf v83 v84
  have v86 : FVec F S64x512 .f32 := extractStridedSlice S64x512 ![0, 0] v85 slices_S128x512_o0_0_S64x512
  have v87 : FVec F S64x512 .f32 := extractStridedSlice S64x512 ![64, 0] v85 slices_S128x512_o64_0_S64x512
  have v88 : FVec F S64x512 .f32 := minimumf v86 v87
  have v89 : FVec F S32x512 .f32 := extractStridedSlice S32x512 ![0, 0] v88 slices_S64x512_o0_0_S32x512
  have v90 : FVec F S32x512 .f32 := extractStridedSlice S32x512 ![32, 0] v88 slices_S64x512_o32_0_S32x512
  have v91 : FVec F S32x512 .f32 := minimumf v89 v90
  have v92 : FVec F S16x512 .f32 := extractStridedSlice S16x512 ![0, 0] v91 slices_S32x512_o0_0_S16x512
  have v93 : FVec F S16x512 .f32 := extractStridedSlice S16x512 ![16, 0] v91 slices_S32x512_o16_0_S16x512
  have v94 : FVec F S16x512 .f32 := minimumf v92 v93
  have v95 : FVec F S8x512 .f32 := extractStridedSlice S8x512 ![0, 0] v94 slices_S16x512_o0_0_S8x512
  have v96 : FVec F S8x512 .f32 := extractStridedSlice S8x512 ![8, 0] v94 slices_S16x512_o8_0_S8x512
  have v97 : FVec F S8x512 .f32 := minimumf v95 v96
  have v98 : FVec F S4x512 .f32 := extractStridedSlice S4x512 ![0, 0] v97 slices_S8x512_o0_0_S4x512
  have v99 : FVec F S4x512 .f32 := extractStridedSlice S4x512 ![4, 0] v97 slices_S8x512_o4_0_S4x512
  have v100 : FVec F S4x512 .f32 := minimumf v98 v99
  have v101 : FVec F S2x512 .f32 := extractStridedSlice S2x512 ![0, 0] v100 slices_S4x512_o0_0_S2x512
  have v102 : FVec F S2x512 .f32 := extractStridedSlice S2x512 ![2, 0] v100 slices_S4x512_o2_0_S2x512
  have v103 : FVec F S2x512 .f32 := minimumf v101 v102
  have v104 : FVec F S1x512 .f32 := extractStridedSlice S1x512 ![0, 0] v103 slices_S2x512_o0_0_S1x512
  have v105 : FVec F S1x512 .f32 := extractStridedSlice S1x512 ![1, 0] v103 slices_S2x512_o1_0_S1x512
  have v106 : FVec F S1x512 .f32 := minimumf v104 v105
  v106

/-- The distance from a squared distance: the square root of its positive part. -/
def root (v79 : FVec F S1x512 .f32) : FVec F S1x512 .f32 :=
  have cst_20 : F .f32 := Scalar.ofBits .f32 0x00000000#32
  have v107 : FVec F S1x512 .f32 := broadcast S1x512 cst_20
  have v108 : FVec F S1x512 .f32 := maximumf v79 v107
  have v109 : FVec F S1x512 .f32 := sqrt v108
  v109

/-- The closing reduction: the sum of all entries of both accumulators, in every entry of
    the output block. -/
def total (v3613 v3617 : FVec F S1x512 .f32) : FVec F S1x1x8x128 .f32 :=
  have v3618 : FVec F S1x1x512 .f32 := shapeCast S1x1x512 v3613 shapeCasts_S1x512_S1x1x512
  have v3619 : FVec F S1 .f32 := multiReduction .add [1, 2] S1 v3618 0x00000000#32 reduces_S1x1x512_S1 (.inl rfl) rfl
  have v3620 : FVec F S1x1x1 .f32 := shapeCast S1x1x1 v3619 shapeCasts_S1_S1x1x1
  have v3621 : F .f32 := extractAt ![0, 0, 0] v3620 inpos_S1x1x1_p0_0_0
  have v3622 : FVec F S1x1x512 .f32 := shapeCast S1x1x512 v3617 shapeCasts_S1x512_S1x1x512
  have v3623 : FVec F S1 .f32 := multiReduction .add [1, 2] S1 v3622 0x00000000#32 reduces_S1x1x512_S1 (.inl rfl) rfl
  have v3624 : FVec F S1x1x1 .f32 := shapeCast S1x1x1 v3623 shapeCasts_S1_S1x1x1
  have v3625 : F .f32 := extractAt ![0, 0, 0] v3624 inpos_S1x1x1_p0_0_0
  have v3626 : F .f32 := Scalar.addf v3621 v3625
  have v3627 : FVec F S1x1x8x128 .f32 := broadcast S1x1x8x128 v3626
  v3627

end Cert.KernelIdeal.Chamfer

end
-- ==== Proof.Nest.lean ====
/- What the kernel body leaves in its output block, as thirty-two repetitions of one step:
   each timestep adds, to a running row of 512 sums, the distance from every predicted point
   to its nearest target (row minima of that step's squared-distance matrix) and, to a second
   running row, the distance from every target to its nearest predicted point (column
   minima); the block is then filled with the total of both rows. -/
import proofs.«181722_g55396488184381_feedfinal_273_31_alg».proof.Proof.Gen.KernelIdeal.Frame
import proofs.«181722_g55396488184381_feedfinal_273_31_alg».proof.Proof.Step

set_option maxRecDepth 65536

noncomputable section

namespace Cert.KernelIdeal.Chamfer

open Idealize.ShloMosaic Idealize.SL.Sem
open Cert.KernelIdeal Cert.KernelIdeal.Gen

variable {F : FTy → Type} [FloatOps F] [Cert.KernelIdeal.Facts]

/-- Timestep k's slab of a staged block lies inside the block. -/
theorem slab_inb (k : ℕ) (hk : k < 32) :
    ∀ a, (![0, k, 0, 0] : Fin S1x32x2x512.rank → ℕ) a + S1x1x2x512.size a ≤ S1x32x2x512.size a := by
  intro a
  match a with
  | ⟨0, _⟩ => exact Nat.le_refl _
  | ⟨1, _⟩ => exact Nat.succ_le_of_lt hk
  | ⟨2, _⟩ => exact Nat.le_refl _
  | ⟨3, _⟩ => exact Nat.le_refl _

/-- Timestep k's slab of a staged block: all of axes 0, 2, 3 at position k of axis 1. -/
abbrev slab (k : ℕ) (hk : k < 32) : Rect S1x32x2x512 :=
  Rect.unit (s := S1x32x2x512) ![0, k, 0, 0] S1x1x2x512.size (slab_inb k hk)

/-- The squared-distance matrix of timestep k, from the three staged blocks. -/
def distAt (x0 x1 x2 : Vec F S1x32x2x512 .f32) (k : ℕ) (hk : k < 32) : FVec F S512x512 .f32 :=
  dist (View.ld x0 (slab k hk)) (View.ld x1 (slab k hk)) (View.ld x2 (slab k hk))

/-- The running row of nearest-target distances after the first k timesteps. -/
def accRow (x0 x1 x2 : Vec F S1x32x2x512 .f32) : (k : ℕ) → k ≤ 32 → FVec F S1x512 .f32
  | 0, _ => broadcast S1x512 (Scalar.ofBits .f32 0x00000000#32)
  | k + 1, h => addf (accRow x0 x1 x2 k (Nat.le_of_succ_le h)) (root (rowMin (distAt x0 x1 x2 k h)))

/-- The running row of nearest-prediction distances after the first k timesteps. -/
def accCol (x0 x1 x2 : Vec F S1x32x2x512 .f32) : (k : ℕ) → k ≤ 32 → FVec F S1x512 .f32
  | 0, _ => broadcast S1x512 (Scalar.ofBits .f32 0x00000000#32)
  | k + 1, h => addf (accCol x0 x1 x2 k (Nat.le_of_succ_le h)) (root (colMin (distAt x0 x1 x2 k h)))

/-- The body's output block is the total of the two running rows after all 32 timesteps. -/
theorem out_eq (x0 x1 x2 : Vec F S1x32x2x512 .f32) :
    out0_3 x0 x1 x2 = View.canon [⟨r0_32, total (accRow x0 x1 x2 32 (Nat.le_refl 32)) (accCol x0 x1 x2 32 (Nat.le_refl 32))⟩] := by
  rfl

end Cert.KernelIdeal.Chamfer

end
-- ==== Proof.RealSpec.lean ====
/- The chamfer loss over real arrays: the common value both programs compute.

   For a batch entry n and a timestep k the predicted point i is the centre plus the velocity
   at time k, clipped to the frame; the target point j is the centre at time k + 1. The loss
   sums, over all n and k, the distance from every predicted point to its nearest target and
   from every target to its nearest predicted point, and divides by 2 · 16 · 512 · 32 = 2^19. -/
import Mathlib
import Idealize.ShloMosaic.Lib.ValueIdx

noncomputable section

namespace Chamfer

open Idealize.ShloMosaic Idealize.ShloMosaic.ValueIdx

/-- The argument arrays' shape: batch 16, time 33, points 512, coordinates 2. -/
abbrev SArg : Shape := ⟨4, ![16, 33, 512, 2]⟩

variable (a b : SArg.Idx → ℝ)

/-- First coordinate of the predicted point: centre plus velocity, clipped to [0, 1080]. -/
def px (n : Fin 16) (k : Fin 33) (i : Fin 512) : ℝ :=
  min 1080 (max 0 (a (ix4 n k i 0) + b (ix4 n k i 0)))

/-- Second coordinate of the predicted point: centre plus velocity, clipped to [0, 1920]. -/
def py (n : Fin 16) (k : Fin 33) (i : Fin 512) : ℝ :=
  min 1920 (max 0 (a (ix4 n k i 1) + b (ix4 n k i 1)))

/-- Squared distance from predicted point i at time k to target point j at time k + 1. -/
def sq (n : Fin 16) (k : Fin 32) (i j : Fin 512) : ℝ :=
  (px a b n k.castSucc i - a (ix4 n k.succ j 0)) ^ 2 + (py a b n k.castSucc i - a (ix4 n k.succ j 1)) ^ 2

/-- Distance from predicted point i to its nearest target. -/
def toTarget (n : Fin 16) (k : Fin 32) (i : Fin 512) : ℝ :=
  Real.sqrt (max (Finset.univ.inf' Finset.univ_nonempty fun j => sq a b n k i j) 0)

/-- Distance from target j to its nearest predicted point. -/
def toPred (n : Fin 16) (k : Fin 32) (j : Fin 512) : ℝ :=
  Real.sqrt (max (Finset.univ.inf' Finset.univ_nonempty fun i => sq a b n k i j) 0)

/-- What one batch entry contributes: both directions summed over points and timesteps. -/
def entry (n : Fin 16) : ℝ :=
  (∑ i : Fin 512, ∑ k : Fin 32, toTarget a b n k i) + (∑ j : Fin 512, ∑ k : Fin 32, toPred a b n k j)

/-- The loss. -/
def loss : ℝ := (∑ n : Fin 16, entry a b n) * (1 / 524288)

end Chamfer

end
-- ==== Proof.KDistLit.lean ====
/- The float words the distance step uses, as real numbers. -/
import Mathlib
import Idealize.ShloMosaic.PureOps.Ideal
import Idealize.ShloMosaic.PureOps.Ideal.Laws
import Idealize.ShloMosaic.Lib.IdealHost

noncomputable section

namespace Chamfer.Lit

open Idealize.ShloMosaic

/-- The word 0xC0000000 is minus two. -/
theorem neg_two : Ideal.ofBits .f32 0xC0000000#32 = (((-2 : ℝ)) : EReal) := by
  simp [Ideal.ofBits, Ideal.ieee, -EReal.coe_mul, -EReal.coe_neg]; norm_num

/-- The word 0x44870000 is 1080. -/
theorem w1080 : Ideal.ofBits .f32 0x44870000#32 = ((1080 : ℝ) : EReal) := by
  simp [Ideal.ofBits, Ideal.ieee, -EReal.coe_mul]; norm_num

/-- The word 0x44F00000 is 1920. -/
theorem w1920 : Ideal.ofBits .f32 0x44F00000#32 = ((1920 : ℝ) : EReal) := by
  simp [Ideal.ofBits, Ideal.ieee, -EReal.coe_mul]; norm_num

/-- The word 0 is zero. -/
theorem w0 : Ideal.ofBits .f32 0x00000000#32 = ((0 : ℝ) : EReal) := by
  rw [Ideal.ofBits_zero_f32]; rfl

/-- The half-width word 0x3F80 is one. -/
theorem one_bf16 : Ideal.ofBits .bf16 0x3F80#16 = ((1 : ℝ) : EReal) := by
  rw [Ideal.ofBits_one_bf16]; rfl

end Chamfer.Lit

end
-- ==== Proof.KDistLay.lean ====
/- Reading the layout operations of the distance step at an index: the two row slices of
   a two-row block, the cast of a loaded block to two rows, and each row of the two
   eight-row concatenations. -/
import Idealize.ShloMosaic.Lib.ValueIdx
import Idealize.ShloMosaic.Lib.Pipeline.Value

noncomputable section

namespace Chamfer.Lay

open Idealize.ShloMosaic Idealize.ShloMosaic.ValueIdx

variable {α : Type}

/-- One row of 512 lanes. -/
abbrev T1 : Shape := ⟨2, ![1, 512]⟩
/-- Two rows. -/
abbrev T2 : Shape := ⟨2, ![2, 512]⟩
/-- Eight rows. -/
abbrev T8 : Shape := ⟨2, ![8, 512]⟩
/-- A loaded block: two rows behind two unit axes. -/
abbrev T4 : Shape := ⟨4, ![1, 1, 2, 512]⟩

/-- Row 0 of a two-row block, at lane i. -/
theorem slice0_apply (x : T2.Idx → α) (h : T2.Slices ![0, 0] T1) (i : Fin 512) :
    extractStridedSlice T1 ![0, 0] x h (ix2 0 i) = x (ix2 0 i) :=
  extractStridedSlice_apply _ x h _ _ fun a => by
    match a with
    | ⟨0, _⟩ => rfl
    | ⟨1, _⟩ => show i.val = 0 + i.val; omega

/-- Row 1 of a two-row block, at lane i. -/
theorem slice1_apply (x : T2.Idx → α) (h : T2.Slices ![1, 0] T1) (i : Fin 512) :
    extractStridedSlice T1 ![1, 0] x h (ix2 0 i) = x (ix2 1 i) :=
  extractStridedSlice_apply _ x h _ _ fun a => by
    match a with
    | ⟨0, _⟩ => rfl
    | ⟨1, _⟩ => show i.val = 0 + i.val; omega

/-- A loaded block seen as two rows. -/
theorem cast_apply (x : T4.Idx → α) (h : T4.ShapeCasts T2) (d : Fin 2) (i : Fin 512) :
    shapeCast T2 x h (ix2 d i) = x (ix4 0 0 d i) :=
  shapeCast_apply x h _ _ (by
    rw [Shape.rowMajor_val_four, Shape.rowMajor_val_two]
    show ((0 * 1 + 0) * 2 + d.val) * 512 + i.val = d.val * 512 + i.val
    omega)

end Chamfer.Lay

end
-- ==== Proof.KDistCat.lean ====
/- Reading the two eight-row concatenations of the distance step row by row. -/
import Idealize.ShloMosaic.Lib.ValueIdx
import Idealize.ShloMosaic.Lib.Pipeline.Value

noncomputable section

namespace Chamfer.Cat

open Idealize.ShloMosaic Idealize.ShloMosaic.ValueIdx

variable {α : Type}

/-- One row of 512 lanes. -/
abbrev T1 : Shape := ⟨2, ![1, 512]⟩
/-- Two rows. -/
abbrev T2 : Shape := ⟨2, ![2, 512]⟩
/-- Eight rows. -/
abbrev T8 : Shape := ⟨2, ![8, 512]⟩

/-- Off the row axis a piece's index and the whole's agree: both are lane i. -/
theorem lane_agree {n m : Nat} (r : Fin n) (c : Fin m) (i : Fin 512) :
    ∀ b : Fin 2, b ≠ (0 : Fin 2) →
      ((ix2 r i : (⟨2, ![n, 512]⟩ : Shape).Idx) b).val = ((ix2 c i : (⟨2, ![m, 512]⟩ : Shape).Idx) b).val := fun b hb => by
  match b with
  | ⟨0, _⟩ => exact absurd rfl hb
  | ⟨1, _⟩ => rfl

section Left
variable (x0 x1 x2 x3 x4 x5 x6 x7 : T1.Idx → α)
  (h : Shape.Concatenates [T1, T1, T1, T1, T1, T1, T1, T1] T8 0) (i : Fin 512)

/-- The left operand's pieces. -/
abbrev leftL : List ((s : Shape) × (s.Idx → α)) :=
  [⟨T1, x0⟩, ⟨T1, x1⟩, ⟨T1, x2⟩, ⟨T1, x3⟩, ⟨T1, x4⟩, ⟨T1, x5⟩, ⟨T1, x6⟩, ⟨T1, x7⟩]

/-- The left operand: eight single rows laid one under another; row k is piece k. -/
theorem left0 : concatenate T8 0 [⟨T1, x0⟩, ⟨T1, x1⟩, ⟨T1, x2⟩, ⟨T1, x3⟩, ⟨T1, x4⟩, ⟨T1, x5⟩, ⟨T1, x6⟩, ⟨T1, x7⟩] h (ix2 0 i) = x0 (ix2 0 i) :=
  concatenate_apply_piece (xs := leftL x0 x1 x2 x3 x4 x5 x6 x7) 0 h _ 0 (show 0 < 8 by omega) T1 x0 rfl rfl 0 rfl (ix2 0 i) (lane_agree 0 0 i) rfl
theorem left1 : concatenate T8 0 [⟨T1, x0⟩, ⟨T1, x1⟩, ⟨T1, x2⟩, ⟨T1, x3⟩, ⟨T1, x4⟩, ⟨T1, x5⟩, ⟨T1, x6⟩, ⟨T1, x7⟩] h (ix2 1 i) = x1 (ix2 0 i) :=
  concatenate_apply_piece (xs := leftL x0 x1 x2 x3 x4 x5 x6 x7) 0 h _ 1 (show 1 < 8 by omega) T1 x1 rfl rfl 1 rfl (ix2 0 i) (lane_agree 0 1 i) rfl
theorem left2 : concatenate T8 0 [⟨T1, x0⟩, ⟨T1, x1⟩, ⟨T1, x2⟩, ⟨T1, x3⟩, ⟨T1, x4⟩, ⟨T1, x5⟩, ⟨T1, x6⟩, ⟨T1, x7⟩] h (ix2 2 i) = x2 (ix2 0 i) :=
  concatenate_apply_piece (xs := leftL x0 x1 x2 x3 x4 x5 x6 x7) 0 h _ 2 (show 2 < 8 by omega) T1 x2 rfl rfl 2 rfl (ix2 0 i) (lane_agree 0 2 i) rfl
theorem left3 : concatenate T8 0 [⟨T1, x0⟩, ⟨T1, x1⟩, ⟨T1, x2⟩, ⟨T1, x3⟩, ⟨T1, x4⟩, ⟨T1, x5⟩, ⟨T1, x6⟩, ⟨T1, x7⟩] h (ix2 3 i) = x3 (ix2 0 i) :=
  concatenate_apply_piece (xs := leftL x0 x1 x2 x3 x4 x5 x6 x7) 0 h _ 3 (show 3 < 8 by omega) T1 x3 rfl rfl 3 rfl (ix2 0 i) (lane_agree 0 3 i) rfl
theorem left4 : concatenate T8 0 [⟨T1, x0⟩, ⟨T1, x1⟩, ⟨T1, x2⟩, ⟨T1, x3⟩, ⟨T1, x4⟩, ⟨T1, x5⟩, ⟨T1, x6⟩, ⟨T1, x7⟩] h (ix2 4 i) = x4 (ix2 0 i) :=
  concatenate_apply_piece (xs := leftL x0 x1 x2 x3 x4 x5 x6 x7) 0 h _ 4 (show 4 < 8 by omega) T1 x4 rfl rfl 4 rfl (ix2 0 i) (lane_agree 0 4 i) rfl
theorem left5 : concatenate T8 0 [⟨T1, x0⟩, ⟨T1, x1⟩, ⟨T1, x2⟩, ⟨T1, x3⟩, ⟨T1, x4⟩, ⟨T1, x5⟩, ⟨T1, x6⟩, ⟨T1, x7⟩] h (ix2 5 i) = x5 (ix2 0 i) :=
  concatenate_apply_piece (xs := leftL x0 x1 x2 x3 x4 x5 x6 x7) 0 h _ 5 (show 5 < 8 by omega) T1 x5 rfl rfl 5 rfl (ix2 0 i) (lane_agree 0 5 i) rfl
theorem left6 : concatenate T8 0 [⟨T1, x0⟩, ⟨T1, x1⟩, ⟨T1, x2⟩, ⟨T1, x3⟩, ⟨T1, x4⟩, ⟨T1, x5⟩, ⟨T1, x6⟩, ⟨T1, x7⟩] h (ix2 6 i) = x6 (ix2 0 i) :=
  concatenate_apply_piece (xs := leftL x0 x1 x2 x3 x4 x5 x6 x7) 0 h _ 6 (show 6 < 8 by omega) T1 x6 rfl rfl 6 rfl (ix2 0 i) (lane_agree 0 6 i) rfl
theorem left7 : concatenate T8 0 [⟨T1, x0⟩, ⟨T1, x1⟩, ⟨T1, x2⟩, ⟨T1, x3⟩, ⟨T1, x4⟩, ⟨T1, x5⟩, ⟨T1, x6⟩, ⟨T1, x7⟩] h (ix2 7 i) = x7 (ix2 0 i) :=
  concatenate_apply_piece (xs := leftL x0 x1 x2 x3 x4 x5 x6 x7) 0 h _ 7 (show 7 < 8 by omega) T1 x7 rfl rfl 7 rfl (ix2 0 i) (lane_agree 0 7 i) rfl

end Left

section Right
variable (y : T2.Idx → α) (x2 x3 x4 x5 x6 x7 : T1.Idx → α)
  (h : Shape.Concatenates [T2, T1, T1, T1, T1, T1, T1] T8 0) (j : Fin 512)

/-- The right operand's pieces. -/
abbrev rightL : List ((s : Shape) × (s.Idx → α)) :=
  [⟨T2, y⟩, ⟨T1, x2⟩, ⟨T1, x3⟩, ⟨T1, x4⟩, ⟨T1, x5⟩, ⟨T1, x6⟩, ⟨T1, x7⟩]

/-- The right operand: a two-row piece, then six single rows; rows 0 and 1 are the two-row
    piece's, row k + 2 is single piece k. -/
theorem right0 : concatenate T8 0 [⟨T2, y⟩, ⟨T1, x2⟩, ⟨T1, x3⟩, ⟨T1, x4⟩, ⟨T1, x5⟩, ⟨T1, x6⟩, ⟨T1, x7⟩] h (ix2 0 j) = y (ix2 0 j) :=
  concatenate_apply_piece (xs := rightL y x2 x3 x4 x5 x6 x7) 0 h _ 0 (show 0 < 7 by omega) T2 y rfl rfl 0 rfl (ix2 0 j) (lane_agree 0 0 j) rfl
theorem right1 : concatenate T8 0 [⟨T2, y⟩, ⟨T1, x2⟩, ⟨T1, x3⟩, ⟨T1, x4⟩, ⟨T1, x5⟩, ⟨T1, x6⟩, ⟨T1, x7⟩] h (ix2 1 j) = y (ix2 1 j) :=
  concatenate_apply_piece (xs := rightL y x2 x3 x4 x5 x6 x7) 0 h _ 0 (show 0 < 7 by omega) T2 y rfl rfl 0 rfl (ix2 1 j) (lane_agree 1 1 j) rfl
theorem right2 : concatenate T8 0 [⟨T2, y⟩, ⟨T1, x2⟩, ⟨T1, x3⟩, ⟨T1, x4⟩, ⟨T1, x5⟩, ⟨T1, x6⟩, ⟨T1, x7⟩] h (ix2 2 j) = x2 (ix2 0 j) :=
  concatenate_apply_piece (xs := rightL y x2 x3 x4 x5 x6 x7) 0 h _ 1 (show 1 < 7 by omega) T1 x2 rfl rfl 2 rfl (ix2 0 j) (lane_agree 0 2 j) rfl
theorem right3 : concatenate T8 0 [⟨T2, y⟩, ⟨T1, x2⟩, ⟨T1, x3⟩, ⟨T1, x4⟩, ⟨T1, x5⟩, ⟨T1, x6⟩, ⟨T1, x7⟩] h (ix2 3 j) = x3 (ix2 0 j) :=
  concatenate_apply_piece (xs := rightL y x2 x3 x4 x5 x6 x7) 0 h _ 2 (show 2 < 7 by omega) T1 x3 rfl rfl 3 rfl (ix2 0 j) (lane_agree 0 3 j) rfl
theorem right4 : concatenate T8 0 [⟨T2, y⟩, ⟨T1, x2⟩, ⟨T1, x3⟩, ⟨T1, x4⟩, ⟨T1, x5⟩, ⟨T1, x6⟩, ⟨T1, x7⟩] h (ix2 4 j) = x4 (ix2 0 j) :=
  concatenate_apply_piece (xs := rightL y x2 x3 x4 x5 x6 x7) 0 h _ 3 (show 3 < 7 by omega) T1 x4 rfl rfl 4 rfl (ix2 0 j) (lane_agree 0 4 j) rfl
theorem right5 : concatenate T8 0 [⟨T2, y⟩, ⟨T1, x2⟩, ⟨T1, x3⟩, ⟨T1, x4⟩, ⟨T1, x5⟩, ⟨T1, x6⟩, ⟨T1, x7⟩] h (ix2 5 j) = x5 (ix2 0 j) :=
  concatenate_apply_piece (xs := rightL y x2 x3 x4 x5 x6 x7) 0 h _ 4 (show 4 < 7 by omega) T1 x5 rfl rfl 5 rfl (ix2 0 j) (lane_agree 0 5 j) rfl
theorem right6 : concatenate T8 0 [⟨T2, y⟩, ⟨T1, x2⟩, ⟨T1, x3⟩, ⟨T1, x4⟩, ⟨T1, x5⟩, ⟨T1, x6⟩, ⟨T1, x7⟩] h (ix2 6 j) = x6 (ix2 0 j) :=
  concatenate_apply_piece (xs := rightL y x2 x3 x4 x5 x6 x7) 0 h _ 5 (show 5 < 7 by omega) T1 x6 rfl rfl 6 rfl (ix2 0 j) (lane_agree 0 6 j) rfl
theorem right7 : concatenate T8 0 [⟨T2, y⟩, ⟨T1, x2⟩, ⟨T1, x3⟩, ⟨T1, x4⟩, ⟨T1, x5⟩, ⟨T1, x6⟩, ⟨T1, x7⟩] h (ix2 7 j) = x7 (ix2 0 j) :=
  concatenate_apply_piece (xs := rightL y x2 x3 x4 x5 x6 x7) 0 h _ 6 (show 6 < 7 by omega) T1 x7 rfl rfl 7 rfl (ix2 0 j) (lane_agree 0 7 j) rfl

end Right

end Chamfer.Cat

end
-- ==== Proof.KDistMm.lean ====
/- The product of the distance step read at an entry: contracting the eight rows gives
   the sum over the eight rows of the left row at lane i times the right row at lane j. -/
import proofs.«181722_g55396488184381_feedfinal_273_31_alg».proof.KernelIdeal
import Idealize.ShloMosaic.Lib.ValueIdx
import Idealize.ShloMosaic.PureOps.Ideal.Laws

noncomputable section

namespace Cert.KernelIdeal.Chamfer

open Idealize.ShloMosaic Idealize.ShloMosaic.ValueIdx Idealize.SL.Sem
open Cert.KernelIdeal Cert.KernelIdeal.Facts₀ Cert.KernelIdeal.Facts

variable [Cert.KernelIdeal.Facts]

/-- The left operand's lane is the entry's row. -/
theorem dot_lhs_lane (j : S512x512.Idx) (q : dot_S8x512_S8x512_S512x512_0_0_1_1_n_n.contr.Idx) :
    (dot_S8x512_S8x512_S512x512_0_0_1_1_n_n.lhsIdx j q 1).val = (j 0).val := by
  unfold DotDims.lhsIdx
  rw [dif_neg (show ¬(1 : Fin S8x512.rank) ∈ dot_S8x512_S8x512_S512x512_0_0_1_1_n_n.lhsBatch from List.not_mem_nil),
    dif_pos (show (1 : Fin S8x512.rank) ∈ dot_S8x512_S8x512_S512x512_0_0_1_1_n_n.lhsNonContracting from List.mem_singleton.mpr rfl)]
  rfl

/-- The right operand's lane is the entry's column. -/
theorem dot_rhs_lane (j : S512x512.Idx) (q : dot_S8x512_S8x512_S512x512_0_0_1_1_n_n.contr.Idx) :
    (dot_S8x512_S8x512_S512x512_0_0_1_1_n_n.rhsIdx j q 1).val = (j 1).val := by
  unfold DotDims.rhsIdx
  rw [dif_neg (show ¬(1 : Fin S8x512.rank) ∈ dot_S8x512_S8x512_S512x512_0_0_1_1_n_n.rhsBatch from List.not_mem_nil),
    dif_pos (show (1 : Fin S8x512.rank) ∈ dot_S8x512_S8x512_S512x512_0_0_1_1_n_n.rhsNonContracting from List.mem_singleton.mpr rfl)]
  rfl

/-- The left operand is read at (row k, lane i). -/
theorem dot_lhs (i j : Fin 512) (k : Fin 8) :
    dot_S8x512_S8x512_S512x512_0_0_1_1_n_n.lhsIdx (ix2 i j) ((contrEquiv1 dot_S8x512_S8x512_S512x512_0_0_1_1_n_n 8 rfl rfl).symm k) = ix2 k i :=
  funext fun a => Fin.ext (by
    have hk := contrEquiv1_symm_val dot_S8x512_S8x512_S512x512_0_0_1_1_n_n 8 rfl rfl k
    match a with
    | ⟨0, _⟩ => exact (dot_S8x512_S8x512_S512x512_0_0_1_1_n_n.lhsIdx_val_of_single rfl _ _).trans hk
    | ⟨1, _⟩ => exact dot_lhs_lane _ _)

/-- The right operand is read at (row k, lane j). -/
theorem dot_rhs (i j : Fin 512) (k : Fin 8) :
    dot_S8x512_S8x512_S512x512_0_0_1_1_n_n.rhsIdx (ix2 i j) ((contrEquiv1 dot_S8x512_S8x512_S512x512_0_0_1_1_n_n 8 rfl rfl).symm k) = ix2 k j :=
  funext fun a => Fin.ext (by
    have hk := contrEquiv1_symm_val dot_S8x512_S8x512_S512x512_0_0_1_1_n_n 8 rfl rfl k
    match a with
    | ⟨0, _⟩ => exact (dot_S8x512_S8x512_S512x512_0_0_1_1_n_n.rhsIdx_val_of_single rfl _ _).trans hk
    | ⟨1, _⟩ => exact dot_rhs_lane _ _)

/-- The product into a zero accumulator, at entry (i, j). -/
theorem mm_apply (A B : FVec Ideal S8x512 .bf16) (i j : Fin 512) :
    matmul dot_S8x512_S8x512_S512x512_0_0_1_1_n_n none A B (constant (F := Ideal) S512x512 .f32 0x00000000#32) (ix2 i j)
      = A (ix2 0 i) * B (ix2 0 j) + A (ix2 1 i) * B (ix2 1 j) + A (ix2 2 i) * B (ix2 2 j) + A (ix2 3 i) * B (ix2 3 j)
        + A (ix2 4 i) * B (ix2 4 j) + A (ix2 5 i) * B (ix2 5 j) + A (ix2 6 i) * B (ix2 6 j) + A (ix2 7 i) * B (ix2 7 j) := by
  refine (Ideal.matmul_constant_zero_apply dot_S8x512_S8x512_S512x512_0_0_1_1_n_n none A B (ix2 i j)).trans ?_
  rw [← Equiv.sum_comp (contrEquiv1 dot_S8x512_S8x512_S512x512_0_0_1_1_n_n 8 rfl rfl).symm]
  simp only [dot_lhs, dot_rhs]
  exact Fin.sum_univ_eight _

end Cert.KernelIdeal.Chamfer

end
-- ==== Proof.KDist.lean ====
/- One timestep's squared-distance matrix and the closing square root, over real inputs:
   entry (i, j) of the matrix is the squared distance between the clipped shifted point i
   and the target point j; the root of an entry r is the square root of max r 0. -/
import proofs.«181722_g55396488184381_feedfinal_273_31_alg».proof.Proof.Step
import proofs.«181722_g55396488184381_feedfinal_273_31_alg».proof.Proof.RealSpec
import proofs.«181722_g55396488184381_feedfinal_273_31_alg».proof.Proof.KDistLit
import proofs.«181722_g55396488184381_feedfinal_273_31_alg».proof.Proof.KDistLay
import proofs.«181722_g55396488184381_feedfinal_273_31_alg».proof.Proof.KDistCat
import proofs.«181722_g55396488184381_feedfinal_273_31_alg».proof.Proof.KDistMm

noncomputable section

namespace Cert.KernelIdeal.Chamfer

open Idealize.ShloMosaic Idealize.ShloMosaic.ValueIdx Idealize.SL.Sem
open Cert.KernelIdeal Cert.KernelIdeal.Facts₀ Cert.KernelIdeal.Facts

variable [Cert.KernelIdeal.Facts]

/-- The coercion of the reals into the extended reals commutes with max … -/
theorem coe_max (x y : ℝ) : max (x : EReal) (y : EReal) = ((max x y : ℝ) : EReal) :=
  (EReal.coe_strictMono.monotone.map_max).symm

/-- … and with min. -/
theorem coe_min (x y : ℝ) : min (x : EReal) (y : EReal) = ((min x y : ℝ) : EReal) :=
  (EReal.coe_strictMono.monotone.map_min).symm

/-- Entry (i, j) of the timestep's matrix: with cx, cy the clipped shifted point i and
    qx, qy the target point j, the eight products sum to
    −2 cx qx − 2 cy qy + (cx² + cy²) + 0 + 0 + (qx² + qy²) + 0 + 0 = (cx − qx)² + (cy − qy)². -/
theorem dist_real (p v q : Fin 2 → Fin 512 → ℝ) (v2 v4 v6 : Vec Ideal S1x1x2x512 .f32)
    (h2 : ∀ d i, v2 (ix4 0 0 d i) = ((p d i : ℝ) : EReal))
    (h4 : ∀ d i, v4 (ix4 0 0 d i) = ((v d i : ℝ) : EReal))
    (h6 : ∀ d i, v6 (ix4 0 0 d i) = ((q d i : ℝ) : EReal)) (i j : Fin 512) :
    dist v2 v4 v6 (ix2 i j)
      = (((min 1080 (max 0 (p 0 i + v 0 i)) - q 0 j) ^ 2 + (min 1920 (max 0 (p 1 i + v 1 i)) - q 1 j) ^ 2 : ℝ) : EReal) := by
  unfold dist
  refine (mm_apply _ _ i j).trans ?_
  simp only [_root_.Chamfer.Cat.left0, _root_.Chamfer.Cat.left1, _root_.Chamfer.Cat.left2, _root_.Chamfer.Cat.left3,
    _root_.Chamfer.Cat.left4, _root_.Chamfer.Cat.left5, _root_.Chamfer.Cat.left6, _root_.Chamfer.Cat.left7,
    _root_.Chamfer.Cat.right0, _root_.Chamfer.Cat.right1, _root_.Chamfer.Cat.right2, _root_.Chamfer.Cat.right3,
    _root_.Chamfer.Cat.right4, _root_.Chamfer.Cat.right5, _root_.Chamfer.Cat.right6, _root_.Chamfer.Cat.right7]
  simp only [truncf_apply, mulf_apply, addf_apply, subf_apply, minimumf_apply, maximumf_apply, broadcast_apply,
    _root_.Chamfer.Lay.slice0_apply, _root_.Chamfer.Lay.slice1_apply, _root_.Chamfer.Lay.cast_apply]
  simp only [Ideal.ofBits_def, _root_.Chamfer.Lit.neg_two, _root_.Chamfer.Lit.w1080, _root_.Chamfer.Lit.w1920,
    _root_.Chamfer.Lit.w0, _root_.Chamfer.Lit.one_bf16, h2, h4, h6]
  simp only [← EReal.coe_add, coe_max, coe_min, ← EReal.coe_mul, ← EReal.coe_sub]
  exact congrArg Real.toEReal (by ring)

/-- The closing root of an entry r: the square root of max r 0 (never the junk value of a
    negative argument, since max r 0 is not negative). -/
theorem root_real (w : FVec Ideal S1x512 .f32) (i : Fin 512) (r : ℝ) (h : w (ix2 0 i) = (r : EReal)) :
    root w (ix2 0 i) = ((Real.sqrt (max r 0) : ℝ) : EReal) := by
  show Ideal.sqrt (max (w (ix2 0 i)) (Ideal.ofBits .f32 0x00000000#32)) = _
  rw [h, _root_.Chamfer.Lit.w0, coe_max, Ideal.sqrt_coe, if_neg (not_lt.mpr (le_max_right r 0))]

end Cert.KernelIdeal.Chamfer

end
-- ==== Proof.KMinOrd.lean ====
/- Order-theoretic facts about the minimum of a finite family indexed by Fin m: it can be
   computed by folding the index range in halves, and over a one-element range it is the
   single value. -/
import Mathlib

namespace Chamfer.KMin

/-- The minimum over Fin (n + n) is the minimum over Fin n of the pairwise minima of the
    entries r and n + r. -/
theorem inf'_halve {α : Type*} [SemilatticeInf α] {m n : ℕ} [NeZero m] [NeZero n] (hm : m = n + n)
    (f : Fin m → α) :
    Finset.univ.inf' Finset.univ_nonempty (fun r : Fin n =>
        f ⟨r.val, by have := r.isLt; omega⟩ ⊓ f ⟨n + r.val, by have := r.isLt; omega⟩)
      = Finset.univ.inf' Finset.univ_nonempty f := by
  apply le_antisymm
  · refine Finset.le_inf' _ _ (fun i _ => ?_)
    by_cases hi : i.val < n
    · refine le_trans (Finset.inf'_le _ (Finset.mem_univ (⟨i.val, hi⟩ : Fin n))) ?_
      exact inf_le_left
    · have hlt : i.val - n < n := by have := i.isLt; omega
      refine le_trans (Finset.inf'_le _ (Finset.mem_univ (⟨i.val - n, hlt⟩ : Fin n))) ?_
      refine le_trans inf_le_right (le_of_eq ?_)
      congr 1
      apply Fin.ext
      show n + (i.val - n) = i.val
      omega
  · refine Finset.le_inf' _ _ (fun r _ => ?_)
    exact le_inf (Finset.inf'_le _ (Finset.mem_univ _)) (Finset.inf'_le _ (Finset.mem_univ _))

/-- Over a one-element index range the minimum is the single value. -/
theorem inf'_fin_one {α : Type*} [SemilatticeInf α] (f : Fin 1 → α) :
    Finset.univ.inf' Finset.univ_nonempty f = f 0 := by
  apply le_antisymm
  · exact Finset.inf'_le _ (Finset.mem_univ 0)
  · refine Finset.le_inf' _ _ (fun i _ => ?_)
    rw [Subsingleton.elim i 0]

/-- The minimum of a finite nonempty family of reals, read among the extended reals. -/
theorem inf'_coe (f : Fin 512 → ℝ) :
    Finset.univ.inf' Finset.univ_nonempty (fun j => ((f j : ℝ) : EReal))
      = ((Finset.univ.inf' Finset.univ_nonempty f : ℝ) : EReal) := by
  obtain ⟨j0, -, hj0⟩ := Finset.exists_mem_eq_inf' Finset.univ_nonempty f
  apply le_antisymm
  · rw [hj0]
    exact Finset.inf'_le _ (Finset.mem_univ j0)
  · refine Finset.le_inf' _ _ (fun j _ => ?_)
    exact EReal.coe_le_coe_iff.2 (Finset.inf'_le _ (Finset.mem_univ j))

end Chamfer.KMin
-- ==== Proof.KMin.lean ====
/- The kernel's two minimum trees over the 512×512 matrix of squared distances, read at an
   index: folding an axis in halves by pairwise minima keeps the minimum along that axis, so
   after all foldings the single remaining row holds, for each column (or, after the
   transposition, for each row), the minimum of the matrix along the folded axis. -/
import proofs.«181722_g55396488184381_feedfinal_273_31_alg».proof.Proof.Step
import proofs.«181722_g55396488184381_feedfinal_273_31_alg».proof.Proof.KMinOrd
import Idealize.ShloMosaic.Lib.ValueLayout

set_option synthInstance.maxSize 4096

noncomputable section

namespace Cert.KernelIdeal.Chamfer

open Idealize.ShloMosaic Idealize.SL.Sem Idealize.ShloMosaic.ValueIdx
open Cert.KernelIdeal Cert.KernelIdeal.Facts₀ Cert.KernelIdeal.Facts

variable [Cert.KernelIdeal.Facts]

/-- One folding of the row axis: entry (r, s) is the smaller of the entries (r, s) and
    (n + r, s) of the operand. -/
def foldRows {m c : ℕ} (n : ℕ) (x : FVec Ideal ⟨2, ![m, c]⟩ .f32)
    (h0 : (⟨2, ![m, c]⟩ : Shape).Slices ![0, 0] ⟨2, ![n, c]⟩)
    (h1 : (⟨2, ![m, c]⟩ : Shape).Slices ![n, 0] ⟨2, ![n, c]⟩) : FVec Ideal ⟨2, ![n, c]⟩ .f32 :=
  minimumf (extractStridedSlice ⟨2, ![n, c]⟩ ![0, 0] x h0) (extractStridedSlice ⟨2, ![n, c]⟩ ![n, 0] x h1)

/-- One folding of the column axis: entry (a, r) is the smaller of the entries (a, r) and
    (a, n + r) of the operand. -/
def foldCols {a m : ℕ} (n : ℕ) (x : FVec Ideal ⟨2, ![a, m]⟩ .f32)
    (h0 : (⟨2, ![a, m]⟩ : Shape).Slices ![0, 0] ⟨2, ![a, n]⟩)
    (h1 : (⟨2, ![a, m]⟩ : Shape).Slices ![0, n] ⟨2, ![a, n]⟩) : FVec Ideal ⟨2, ![a, n]⟩ .f32 :=
  minimumf (extractStridedSlice ⟨2, ![a, n]⟩ ![0, 0] x h0) (extractStridedSlice ⟨2, ![a, n]⟩ ![0, n] x h1)

/-- Folding the row axis in halves keeps every column's minimum. -/
theorem foldRows_inf' {m c : ℕ} (n : ℕ) [NeZero m] [NeZero n] (hm : m = n + n)
    (x : FVec Ideal ⟨2, ![m, c]⟩ .f32)
    (h0 : (⟨2, ![m, c]⟩ : Shape).Slices ![0, 0] ⟨2, ![n, c]⟩)
    (h1 : (⟨2, ![m, c]⟩ : Shape).Slices ![n, 0] ⟨2, ![n, c]⟩) (s : Fin c) :
    Finset.univ.inf' Finset.univ_nonempty (fun r : Fin n => foldRows n x h0 h1 (ix2 r s))
      = Finset.univ.inf' Finset.univ_nonempty (fun i : Fin m => x (ix2 i s)) := by
  rw [← _root_.Chamfer.KMin.inf'_halve hm (fun i : Fin m => x (ix2 i s))]
  refine congrArg _ (funext fun r => ?_)
  show min (extractStridedSlice _ _ x h0 (ix2 r s)) (extractStridedSlice _ _ x h1 (ix2 r s)) = _
  rw [slice2_axis0_apply 0 x h0 r s ⟨r.val, by have := r.isLt; omega⟩ (Nat.zero_add _).symm,
    slice2_axis0_apply n x h1 r s ⟨n + r.val, by have := r.isLt; omega⟩ rfl]

/-- Folding the column axis in halves keeps every row's minimum. -/
theorem foldCols_inf' {a m : ℕ} (n : ℕ) [NeZero m] [NeZero n] (hm : m = n + n)
    (x : FVec Ideal ⟨2, ![a, m]⟩ .f32)
    (h0 : (⟨2, ![a, m]⟩ : Shape).Slices ![0, 0] ⟨2, ![a, n]⟩)
    (h1 : (⟨2, ![a, m]⟩ : Shape).Slices ![0, n] ⟨2, ![a, n]⟩) (i : Fin a) :
    Finset.univ.inf' Finset.univ_nonempty (fun r : Fin n => foldCols n x h0 h1 (ix2 i r))
      = Finset.univ.inf' Finset.univ_nonempty (fun k : Fin m => x (ix2 i k)) := by
  rw [← _root_.Chamfer.KMin.inf'_halve hm (fun k : Fin m => x (ix2 i k))]
  refine congrArg _ (funext fun r => ?_)
  show min (extractStridedSlice _ _ x h0 (ix2 i r)) (extractStridedSlice _ _ x h1 (ix2 i r)) = _
  rw [slice2_axis1_apply 0 x h0 i r ⟨r.val, by have := r.isLt; omega⟩ (Nat.zero_add _).symm,
    slice2_axis1_apply n x h1 i r ⟨n + r.val, by have := r.isLt; omega⟩ rfl]

/-- The column minima as nine foldings of the row axis. -/
theorem colMin_eq (D : FVec Ideal S512x512 .f32) :
    colMin D = (foldRows 1 (foldRows 2 (foldRows 4 (foldRows 8 (foldRows 16 (foldRows 32 (foldRows 64 (foldRows 128 (foldRows 256 D slices_S512x512_o0_0_S256x512 slices_S512x512_o256_0_S256x512) slices_S256x512_o0_0_S128x512 slices_S256x512_o128_0_S128x512) slices_S128x512_o0_0_S64x512 slices_S128x512_o64_0_S64x512) slices_S64x512_o0_0_S32x512 slices_S64x512_o32_0_S32x512) slices_S32x512_o0_0_S16x512 slices_S32x512_o16_0_S16x512) slices_S16x512_o0_0_S8x512 slices_S16x512_o8_0_S8x512) slices_S8x512_o0_0_S4x512 slices_S8x512_o4_0_S4x512) slices_S4x512_o0_0_S2x512 slices_S4x512_o2_0_S2x512) slices_S2x512_o0_0_S1x512 slices_S2x512_o1_0_S1x512) := rfl

/-- The row minima as two foldings of the column axis, the transposition, and seven foldings
    of the row axis. -/
theorem rowMin_eq (D : FVec Ideal S512x512 .f32) :
    rowMin D = (foldRows 1 (foldRows 2 (foldRows 4 (foldRows 8 (foldRows 16 (foldRows 32 (foldRows 64 (transpose S128x512 [1, 0] (foldCols 128 (foldCols 256 D slices_S512x512_o0_0_S512x256 slices_S512x512_o0_256_S512x256) slices_S512x256_o0_0_S512x128 slices_S512x256_o0_128_S512x128) transposes_S512x128_p1_0_S128x512) slices_S128x512_o0_0_S64x512 slices_S128x512_o64_0_S64x512) slices_S64x512_o0_0_S32x512 slices_S64x512_o32_0_S32x512) slices_S32x512_o0_0_S16x512 slices_S32x512_o16_0_S16x512) slices_S16x512_o0_0_S8x512 slices_S16x512_o8_0_S8x512) slices_S8x512_o0_0_S4x512 slices_S8x512_o4_0_S4x512) slices_S4x512_o0_0_S2x512 slices_S4x512_o2_0_S2x512) slices_S2x512_o0_0_S1x512 slices_S2x512_o1_0_S1x512) := rfl

/-- Entry j of the column minima is the minimum of column j of the matrix. -/
theorem colMin_apply (D : FVec Ideal S512x512 .f32) (j : Fin 512) :
    colMin D (ix2 0 j) = Finset.univ.inf' Finset.univ_nonempty (fun i : Fin 512 => D (ix2 i j)) := by
  rw [colMin_eq, ← _root_.Chamfer.KMin.inf'_fin_one (fun r : Fin 1 => (foldRows 1 (foldRows 2 (foldRows 4 (foldRows 8 (foldRows 16 (foldRows 32 (foldRows 64 (foldRows 128 (foldRows 256 D slices_S512x512_o0_0_S256x512 slices_S512x512_o256_0_S256x512) slices_S256x512_o0_0_S128x512 slices_S256x512_o128_0_S128x512) slices_S128x512_o0_0_S64x512 slices_S128x512_o64_0_S64x512) slices_S64x512_o0_0_S32x512 slices_S64x512_o32_0_S32x512) slices_S32x512_o0_0_S16x512 slices_S32x512_o16_0_S16x512) slices_S16x512_o0_0_S8x512 slices_S16x512_o8_0_S8x512) slices_S8x512_o0_0_S4x512 slices_S8x512_o4_0_S4x512) slices_S4x512_o0_0_S2x512 slices_S4x512_o2_0_S2x512) slices_S2x512_o0_0_S1x512 slices_S2x512_o1_0_S1x512) (ix2 r j))]
  rw [foldRows_inf' 1 rfl, foldRows_inf' 2 rfl, foldRows_inf' 4 rfl, foldRows_inf' 8 rfl, foldRows_inf' 16 rfl,
    foldRows_inf' 32 rfl, foldRows_inf' 64 rfl, foldRows_inf' 128 rfl, foldRows_inf' 256 rfl]

/-- Entry i of the row minima is the minimum of row i of the matrix. -/
theorem rowMin_apply (D : FVec Ideal S512x512 .f32) (i : Fin 512) :
    rowMin D (ix2 0 i) = Finset.univ.inf' Finset.univ_nonempty (fun j : Fin 512 => D (ix2 i j)) := by
  rw [rowMin_eq, ← _root_.Chamfer.KMin.inf'_fin_one (fun r : Fin 1 => (foldRows 1 (foldRows 2 (foldRows 4 (foldRows 8 (foldRows 16 (foldRows 32 (foldRows 64 (transpose S128x512 [1, 0] (foldCols 128 (foldCols 256 D slices_S512x512_o0_0_S512x256 slices_S512x512_o0_256_S512x256) slices_S512x256_o0_0_S512x128 slices_S512x256_o0_128_S512x128) transposes_S512x128_p1_0_S128x512) slices_S128x512_o0_0_S64x512 slices_S128x512_o64_0_S64x512) slices_S64x512_o0_0_S32x512 slices_S64x512_o32_0_S32x512) slices_S32x512_o0_0_S16x512 slices_S32x512_o16_0_S16x512) slices_S16x512_o0_0_S8x512 slices_S16x512_o8_0_S8x512) slices_S8x512_o0_0_S4x512 slices_S8x512_o4_0_S4x512) slices_S4x512_o0_0_S2x512 slices_S4x512_o2_0_S2x512) slices_S2x512_o0_0_S1x512 slices_S2x512_o1_0_S1x512) (ix2 r i))]
  rw [foldRows_inf' 1 rfl, foldRows_inf' 2 rfl, foldRows_inf' 4 rfl, foldRows_inf' 8 rfl, foldRows_inf' 16 rfl,
    foldRows_inf' 32 rfl, foldRows_inf' 64 rfl]
  have ht : (fun r : Fin 128 => (transpose S128x512 [1, 0] (foldCols 128 (foldCols 256 D slices_S512x512_o0_0_S512x256 slices_S512x512_o0_256_S512x256) slices_S512x256_o0_0_S512x128 slices_S512x256_o0_128_S512x128) transposes_S512x128_p1_0_S128x512) (ix2 r i))
      = (fun r : Fin 128 => (foldCols 128 (foldCols 256 D slices_S512x512_o0_0_S512x256 slices_S512x512_o0_256_S512x256) slices_S512x256_o0_0_S512x128 slices_S512x256_o0_128_S512x128) (ix2 i r)) :=
    funext fun r => transpose_ix2_apply _ _ r i
  rw [ht]
  rw [foldCols_inf' 128 rfl, foldCols_inf' 256 rfl]

end Cert.KernelIdeal.Chamfer

end
-- ==== Proof.KTotal.lean ====
/- The kernel's closing reduction. Each of the two 1×512 accumulators is summed over all its
   entries; the two totals are added and the result is written to every entry of the output
   block. When the accumulators hold real numbers the result is the real sum of both. -/
import proofs.«181722_g55396488184381_feedfinal_273_31_alg».proof.Proof.Step
import Idealize.ShloMosaic.Lib.ValueIdx
import Idealize.ShloMosaic.Lib.Pipeline.Value
import Idealize.ShloMosaic.PureOps.Ideal.Laws

noncomputable section

namespace Cert.KernelIdeal.Chamfer

open Idealize.ShloMosaic Idealize.ShloMosaic.ValueIdx
open Cert.KernelIdeal Cert.KernelIdeal.Facts₀ Cert.KernelIdeal.Facts

variable [Cert.KernelIdeal.Facts]

/-- A finite sum of coercions of reals is the coercion of the real sum. -/
theorem coe_sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The indices of a 1×1×512 array are its 512 positions along the last axis. -/
def laneEquiv : Fin 512 ≃ S1x1x512.Idx where
  toFun k := ix3 0 0 k
  invFun j := j 2
  left_inv _ := rfl
  right_inv j := by
    funext a
    match a with
    | ⟨0, _⟩ => exact Subsingleton.elim (α := Fin 1) _ _
    | ⟨1, _⟩ => exact Subsingleton.elim (α := Fin 1) _ _
    | ⟨2, _⟩ => rfl

/-- One accumulator's total: reshaped to 1×1×512, summed over the two trailing axes and read
    at the single remaining position, it is the sum of its 512 entries. -/
theorem lane_total (V : FVec Ideal S1x512 .f32) (vv : Fin 512 → ℝ)
    (hV : ∀ i, V (ix2 0 i) = ((vv i : ℝ) : EReal)) :
    extractAt ![0, 0, 0]
      (shapeCast S1x1x1
        (multiReduction (F := Ideal) .add [1, 2] S1 (shapeCast S1x1x512 V shapeCasts_S1x512_S1x1x512)
          0x00000000#32 reduces_S1x1x512_S1 (.inl rfl) rfl) shapeCasts_S1_S1x1x1) inpos_S1x1x1_p0_0_0
      = ((∑ i, vv i : ℝ) : EReal) := by
  refine (Ideal.multiReduction_add_total (φ := .f32) (shapeCast S1x1x512 V shapeCasts_S1x512_S1x1x512)
    0x00000000#32 reduces_S1x1x512_S1 (fun b => ?_) (.inl rfl) rfl _).trans ?_
  · match b with
    | ⟨0, _⟩ => rfl
  · rw [← Equiv.sum_comp laneEquiv, ← coe_sum_real]
    refine Finset.sum_congr rfl fun k _ => ?_
    show shapeCast S1x1x512 V shapeCasts_S1x512_S1x1x512 (ix3 0 0 k) = _
    rw [shapeCast_apply V _ (ix3 0 0 k) (ix2 0 k)
      (by rw [Shape.rowMajor_val_two, Shape.rowMajor_val_three]; rfl), hV]

/-- The closing reduction of real-valued accumulators is the sum of all their entries. -/
theorem total_real (R C : FVec Ideal S1x512 .f32) (rr cc : Fin 512 → ℝ)
    (hR : ∀ i, R (ix2 0 i) = ((rr i : ℝ) : EReal)) (hC : ∀ i, C (ix2 0 i) = ((cc i : ℝ) : EReal))
    (y : S1x1x8x128.Idx) :
    total (F := Ideal) R C y = (((∑ i, rr i) + (∑ i, cc i) : ℝ) : EReal) := by
  rw [EReal.coe_add]
  exact congrArg₂ (· + ·) (lane_total R rr hR) (lane_total C cc hC)

end Cert.KernelIdeal.Chamfer

end
-- ==== Proof.KAcc.lean ====
import proofs.«181722_g55396488184381_feedfinal_273_31_alg».proof.Proof.Nest
import proofs.«181722_g55396488184381_feedfinal_273_31_alg».proof.Proof.RealSpec
import proofs.«181722_g55396488184381_feedfinal_273_31_alg».proof.Proof.KDist
import proofs.«181722_g55396488184381_feedfinal_273_31_alg».proof.Proof.KMin
import proofs.«181722_g55396488184381_feedfinal_273_31_alg».proof.Proof.KTotal
import Idealize.ShloMosaic.Lib.Pipeline.Value
import Idealize.ShloMosaic.Lib.ValueIdx
import Idealize.ShloMosaic.PureOps.Ideal.Laws

/- The kernel body's output block as a real number, when the three staged blocks hold reals:
   the running rows are partial sums over the timesteps of the nearest-neighbour distances,
   and the block is filled with their grand total. -/

set_option maxRecDepth 16384

noncomputable section

namespace Cert.KernelIdeal.Chamfer

open Idealize.ShloMosaic Idealize.SL.Sem Idealize.ShloMosaic.ValueIdx
open Cert.KernelIdeal Cert.KernelIdeal.Gen

/-- Reading timestep k's slab of a staged block at (coordinate d, point i) reads the block at (k, d, i). -/
theorem ld_slab (x : Vec Ideal S1x32x2x512 .f32) (k : ℕ) (hk : k < 32) (d : Fin 2) (i : Fin 512) :
    View.ld x (slab k hk) (ix4 0 0 d i) = x (ix4 0 ⟨k, hk⟩ d i) := by
  show x ((slab k hk).idx (ix4 0 0 d i)) = x (ix4 0 ⟨k, hk⟩ d i)
  refine congrArg x (funext fun a => Fin.ext ?_)
  match a with
  | ⟨0, _⟩ => rfl
  | ⟨1, _⟩ => show k + 1 * 0 = k; omega
  | ⟨2, _⟩ => show 0 + 1 * d.val = d.val; omega
  | ⟨3, _⟩ => show 0 + 1 * i.val = i.val; omega

theorem zero4 : (![0, 0, 0, 0] : Fin 4 → Nat) = fun _ => 0 := funext fun a => by fin_cases a <;> rfl

variable (P Vl Q : Fin 32 → Fin 2 → Fin 512 → ℝ)

/-- Squared distance, at timestep k of a block, from the clipped shifted point i to the next centre j. -/
def sqB (k : Fin 32) (i j : Fin 512) : ℝ :=
  (min 1080 (max 0 (P k 0 i + Vl k 0 i)) - Q k 0 j) ^ 2 + (min 1920 (max 0 (P k 1 i + Vl k 1 i)) - Q k 1 j) ^ 2

/-- Distance from shifted point i to its nearest next centre at timestep k (zero past the last timestep). -/
def rowB (k : ℕ) (i : Fin 512) : ℝ :=
  if h : k < 32 then Real.sqrt (max (Finset.univ.inf' Finset.univ_nonempty fun j => sqB P Vl Q ⟨k, h⟩ i j) 0) else 0

/-- Distance from next centre j to its nearest shifted point at timestep k (zero past the last timestep). -/
def colB (k : ℕ) (j : Fin 512) : ℝ :=
  if h : k < 32 then Real.sqrt (max (Finset.univ.inf' Finset.univ_nonempty fun i => sqB P Vl Q ⟨k, h⟩ i j) 0) else 0

variable (x0 x1 x2 : Vec Ideal S1x32x2x512 .f32)
  (hx0 : ∀ k d i, x0 (ix4 0 k d i) = ((P k d i : ℝ) : EReal))
  (hx1 : ∀ k d i, x1 (ix4 0 k d i) = ((Vl k d i : ℝ) : EReal))
  (hx2 : ∀ k d i, x2 (ix4 0 k d i) = ((Q k d i : ℝ) : EReal))

include hx0 hx1 hx2

/-- Timestep k's matrix holds the squared distances. -/
theorem distAt_real (k : ℕ) (hk : k < 32) (i j : Fin 512) :
    distAt x0 x1 x2 k hk (ix2 i j) = ((sqB P Vl Q ⟨k, hk⟩ i j : ℝ) : EReal) :=
  dist_real (P ⟨k, hk⟩) (Vl ⟨k, hk⟩) (Q ⟨k, hk⟩) _ _ _
    (fun d i => (ld_slab x0 k hk d i).trans (hx0 ⟨k, hk⟩ d i))
    (fun d i => (ld_slab x1 k hk d i).trans (hx1 ⟨k, hk⟩ d i))
    (fun d i => (ld_slab x2 k hk d i).trans (hx2 ⟨k, hk⟩ d i)) i j

/-- After k timesteps the first running row holds the partial sums of the nearest-target distances. -/
theorem accRow_real : ∀ (k : ℕ) (hk : k ≤ 32) (i : Fin 512),
    accRow x0 x1 x2 k hk (ix2 0 i) = ((∑ k' ∈ Finset.range k, rowB P Vl Q k' i : ℝ) : EReal)
  | 0, _, i => by
    show Ideal.ofBits .f32 0x00000000#32 = _
    rw [Ideal.ofBits_zero_f32, Finset.range_zero, Finset.sum_empty, EReal.coe_zero]
  | k + 1, hk, i => by
    have hk' : k < 32 := hk
    rw [Finset.sum_range_succ, EReal.coe_add, ← accRow_real k (Nat.le_of_succ_le hk) i]
    show accRow x0 x1 x2 k (Nat.le_of_succ_le hk) (ix2 0 i) + root (rowMin (distAt x0 x1 x2 k hk)) (ix2 0 i) = _
    congr 1
    have hm : rowMin (distAt x0 x1 x2 k hk) (ix2 0 i)
        = ((Finset.univ.inf' Finset.univ_nonempty fun j => sqB P Vl Q ⟨k, hk'⟩ i j : ℝ) : EReal) := by
      rw [rowMin_apply]
      simp only [distAt_real P Vl Q x0 x1 x2 hx0 hx1 hx2 k hk]
      exact _root_.Chamfer.KMin.inf'_coe _
    rw [root_real _ i _ hm]
    unfold rowB
    rw [dif_pos hk']

/-- After k timesteps the second running row holds the partial sums of the nearest-prediction distances. -/
theorem accCol_real : ∀ (k : ℕ) (hk : k ≤ 32) (j : Fin 512),
    accCol x0 x1 x2 k hk (ix2 0 j) = ((∑ k' ∈ Finset.range k, colB P Vl Q k' j : ℝ) : EReal)
  | 0, _, j => by
    show Ideal.ofBits .f32 0x00000000#32 = _
    rw [Ideal.ofBits_zero_f32, Finset.range_zero, Finset.sum_empty, EReal.coe_zero]
  | k + 1, hk, j => by
    have hk' : k < 32 := hk
    rw [Finset.sum_range_succ, EReal.coe_add, ← accCol_real k (Nat.le_of_succ_le hk) j]
    show accCol x0 x1 x2 k (Nat.le_of_succ_le hk) (ix2 0 j) + root (colMin (distAt x0 x1 x2 k hk)) (ix2 0 j) = _
    congr 1
    have hm : colMin (distAt x0 x1 x2 k hk) (ix2 0 j)
        = ((Finset.univ.inf' Finset.univ_nonempty fun i => sqB P Vl Q ⟨k, hk'⟩ i j : ℝ) : EReal) := by
      rw [colMin_apply]
      simp only [distAt_real P Vl Q x0 x1 x2 hx0 hx1 hx2 k hk]
      exact _root_.Chamfer.KMin.inf'_coe _
    rw [root_real _ j _ hm]
    unfold colB
    rw [dif_pos hk']

/-- The body's output block: every entry is the total of both directions over all points and timesteps. -/
theorem block_real (y : S1x1x8x128.Idx) :
    out0_3 x0 x1 x2 y = (((∑ i : Fin 512, ∑ k ∈ Finset.range 32, rowB P Vl Q k i)
      + (∑ j : Fin 512, ∑ k ∈ Finset.range 32, colB P Vl Q k j) : ℝ) : EReal) := by
  rw [out_eq, View.canon_unit_zero (S := S1x1x8x128) zero4]
  exact total_real _ _ _ _ (accRow_real P Vl Q x0 x1 x2 hx0 hx1 hx2 32 (Nat.le_refl 32))
    (accCol_real P Vl Q x0 x1 x2 hx0 hx1 hx2 32 (Nat.le_refl 32)) y

end Cert.KernelIdeal.Chamfer

end
-- ==== Proof.KRun.lean ====
import proofs.«181722_g55396488184381_feedfinal_273_31_alg».proof.Proof.KAcc
import proofs.«181722_g55396488184381_feedfinal_273_31_alg».proof.Proof.RealSpec
import Idealize.ShloMosaic.Lib.StableHlo.Run
import Idealize.ShloMosaic.Lib.Pipeline.Value
import Idealize.ShloMosaic.Lib.ValueIdx
import Idealize.ShloMosaic.PureOps.Ideal.Laws

/- The kernel program's result as a real number. Each of the 16 grid points stages batch entry
   n of the transposed arrays (centre and velocity at times 0..31, centre at times 1..32),
   writes block n of the output array full of that entry's contribution, and the host lines
   after the region add the 16 contributions and scale the sum. -/

set_option maxRecDepth 16384

noncomputable section

namespace Cert.KernelIdeal.Chamfer

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-! ## The host lines before the region -/

/-- Window 0's array: the first argument transposed (coordinate axis before point axis), times 0..31. -/
theorem V2_apply (c : Dev nD) (n : Fin 16) (k : Fin 32) (d : Fin 2) (i : Fin 512) :
    (V m c main_v2 : S16x32x2x512.Idx → EReal) (ix4 n k d i)
      = (m (c, Proc.tc.devRef main_arg0) : S16x33x512x2.Idx → EReal) (ix4 n k.castSucc i d) := by
  have e : (V m c main_v2 : S16x32x2x512.Idx → EReal)
      = extractStridedSlice S16x32x2x512 ![0, 0, 0, 0]
          (transpose S16x33x2x512 [0, 1, 3, 2] (m (c, Proc.tc.devRef main_arg0)) transposes_S16x33x512x2_S16x33x2x512_0_1_3_2)
          slices_S16x33x2x512_S16x32x2x512_0_0_0_0 := by
    show StableHlo.after hostOps0 (fun b => m (c, b)) (Proc.devRef .tc main_v2) = _
    after_results
  rw [e, extractStridedSlice_apply _ _ _ _ (ix4 n k.castSucc d i) (by
      intro a
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm),
    transpose_apply _ _ _ _ (ix4 n k.castSucc i d) (by
      intro b
      match b with
      | ⟨0, _⟩ => rfl
      | ⟨1, _⟩ => rfl
      | ⟨2, _⟩ => rfl
      | ⟨3, _⟩ => rfl)]

/-- Window 1's array: the second argument transposed, times 0..31. -/
theorem V3_apply (c : Dev nD) (n : Fin 16) (k : Fin 32) (d : Fin 2) (i : Fin 512) :
    (V m c main_v3 : S16x32x2x512.Idx → EReal) (ix4 n k d i)
      = (m (c, Proc.tc.devRef main_arg1) : S16x33x512x2.Idx → EReal) (ix4 n k.castSucc i d) := by
  have e : (V m c main_v3 : S16x32x2x512.Idx → EReal)
      = extractStridedSlice S16x32x2x512 ![0, 0, 0, 0]
          (transpose S16x33x2x512 [0, 1, 3, 2] (m (c, Proc.tc.devRef main_arg1)) transposes_S16x33x512x2_S16x33x2x512_0_1_3_2)
          slices_S16x33x2x512_S16x32x2x512_0_0_0_0 := by
    show StableHlo.after hostOps0 (fun b => m (c, b)) (Proc.devRef .tc main_v3) = _
    after_results
  rw [e, extractStridedSlice_apply _ _ _ _ (ix4 n k.castSucc d i) (by
      intro a
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm),
    transpose_apply _ _ _ _ (ix4 n k.castSucc i d) (by
      intro b
      match b with
      | ⟨0, _⟩ => rfl
      | ⟨1, _⟩ => rfl
      | ⟨2, _⟩ => rfl
      | ⟨3, _⟩ => rfl)]

/-- Window 2's array: the first argument transposed, times 1..32. -/
theorem V4_apply (c : Dev nD) (n : Fin 16) (k : Fin 32) (d : Fin 2) (i : Fin 512) :
    (V m c main_v4 : S16x32x2x512.Idx → EReal) (ix4 n k d i)
      = (m (c, Proc.tc.devRef main_arg0) : S16x33x512x2.Idx → EReal) (ix4 n k.succ i d) := by
  have e : (V m c main_v4 : S16x32x2x512.Idx → EReal)
      = extractStridedSlice S16x32x2x512 ![0, 1, 0, 0]
          (transpose S16x33x2x512 [0, 1, 3, 2] (m (c, Proc.tc.devRef main_arg0)) transposes_S16x33x512x2_S16x33x2x512_0_1_3_2)
          slices_S16x33x2x512_S16x32x2x512_0_1_0_0 := by
    show StableHlo.after hostOps0 (fun b => m (c, b)) (Proc.devRef .tc main_v4) = _
    after_results
  rw [e, extractStridedSlice_apply _ _ _ _ (ix4 n k.succ d i) (by
      intro a
      match a with
      | ⟨0, _⟩ => exact (Nat.zero_add _).symm
      | ⟨1, _⟩ => exact Nat.add_comm _ _
      | ⟨2, _⟩ => exact (Nat.zero_add _).symm
      | ⟨3, _⟩ => exact (Nat.zero_add _).symm),
    transpose_apply _ _ _ _ (ix4 n k.succ i d) (by
      intro b
      match b with
      | ⟨0, _⟩ => rfl
      | ⟨1, _⟩ => rfl
      | ⟨2, _⟩ => rfl
      | ⟨3, _⟩ => rfl)]

/-! ## The grid -/

/-- Grid point t stages block (t, 0, 0, 0) of every window. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The batch entry a grid point works on. -/
def entryOf (t : Fin cfg0.N) : Fin 16 := ⟨t.val, lt_of_lt_of_eq t.isLt N_0⟩

variable (a b : Chamfer.SArg.Idx → ℝ)

/-- What the output array holds after the run: every entry of block n is batch entry n's contribution. -/
def G : S16x1x8x128.Idx → EReal := fun idx => ((_root_.Chamfer.entry a b (idx 0) : ℝ) : EReal)

variable (c : Dev nD)
  (hA : (m (c, Proc.tc.devRef main_arg0) : S16x33x512x2.Idx → EReal) = fun i => ((a i : ℝ) : EReal))
  (hB : (m (c, Proc.tc.devRef main_arg1) : S16x33x512x2.Idx → EReal) = fun i => ((b i : ℝ) : EReal))

include hA hB

set_option maxHeartbeats 1000000 in
/-- What point t writes back is block t of that array. -/
theorem flushed_eq (t : Fin cfg0.N) :
    (dats m 0 c).flushed 3 t = ((cfg0.win 3).blk t).view.read (Elt Ideal) (G a b) := by
  show (cfg0.win 3).cut (grid0.coords t) ((dats m 0 c).after 3 t) = _
  rw [after0_3]
  obtain ⟨e00, e01, e02, e03, e10, e11, e12, e13, e20, e21, e22, e23, e30, e31, e32, e33⟩ := idx_facts t
  funext y
  show out0_3 (iblk m c 0 t) (iblk m c 1 t) (iblk m c 2 t) y = G a b (((cfg0.win 3).blk t).view.emb y)
  have hn : (((cfg0.win 3).blk t).view.emb y : S16x1x8x128.Idx) 0 = entryOf t := by
    apply Fin.ext
    show win0_3.index t (0 : Fin 4) * 1 + 1 * (y 0).val = t.val
    have hy : (y 0).val < 1 := (y 0).isLt
    omega
  have h0 : ∀ (k : Fin 32) (d : Fin 2) (i : Fin 512), iblk m c 0 t (ix4 0 k d i) = ((a (ix4 (entryOf t) k.castSucc i d) : ℝ) : EReal) := by
    intro k d i
    show (V m c main_v2 : S16x32x2x512.Idx → EReal) (((cfg0.win 0).blk t).view.emb (ix4 0 k d i)) = _
    have he : ((cfg0.win 0).blk t).view.emb (ix4 0 k d i) = ix4 (entryOf t) k d i := by
      funext x; apply Fin.ext
      match x with
      | ⟨0, _⟩ => show win0_0.index t (0 : Fin 4) * 1 + 1 * 0 = t.val; omega
      | ⟨1, _⟩ => show win0_0.index t (1 : Fin 4) * 32 + 1 * k.val = k.val; omega
      | ⟨2, _⟩ => show win0_0.index t (2 : Fin 4) * 2 + 1 * d.val = d.val; omega
      | ⟨3, _⟩ => show win0_0.index t (3 : Fin 4) * 512 + 1 * i.val = i.val; omega
    rw [he, V2_apply, hA]
  have h1 : ∀ (k : Fin 32) (d : Fin 2) (i : Fin 512), iblk m c 1 t (ix4 0 k d i) = ((b (ix4 (entryOf t) k.castSucc i d) : ℝ) : EReal) := by
    intro k d i
    show (V m c main_v3 : S16x32x2x512.Idx → EReal) (((cfg0.win 1).blk t).view.emb (ix4 0 k d i)) = _
    have he : ((cfg0.win 1).blk t).view.emb (ix4 0 k d i) = ix4 (entryOf t) k d i := by
      funext x; apply Fin.ext
      match x with
      | ⟨0, _⟩ => show win0_1.index t (0 : Fin 4) * 1 + 1 * 0 = t.val; omega
      | ⟨1, _⟩ => show win0_1.index t (1 : Fin 4) * 32 + 1 * k.val = k.val; omega
      | ⟨2, _⟩ => show win0_1.index t (2 : Fin 4) * 2 + 1 * d.val = d.val; omega
      | ⟨3, _⟩ => show win0_1.index t (3 : Fin 4) * 512 + 1 * i.val = i.val; omega
    rw [he, V3_apply, hB]
  have h2 : ∀ (k : Fin 32) (d : Fin 2) (i : Fin 512), iblk m c 2 t (ix4 0 k d i) = ((a (ix4 (entryOf t) k.succ i d) : ℝ) : EReal) := by
    intro k d i
    show (V m c main_v4 : S16x32x2x512.Idx → EReal) (((cfg0.win 2).blk t).view.emb (ix4 0 k d i)) = _
    have he : ((cfg0.win 2).blk t).view.emb (ix4 0 k d i) = ix4 (entryOf t) k d i := by
      funext x; apply Fin.ext
      match x with
      | ⟨0, _⟩ => show win0_2.index t (0 : Fin 4) * 1 + 1 * 0 = t.val; omega
      | ⟨1, _⟩ => show win0_2.index t (1 : Fin 4) * 32 + 1 * k.val = k.val; omega
      | ⟨2, _⟩ => show win0_2.index t (2 : Fin 4) * 2 + 1 * d.val = d.val; omega
      | ⟨3, _⟩ => show win0_2.index t (3 : Fin 4) * 512 + 1 * i.val = i.val; omega
    rw [he, V4_apply, hA]
  rw [block_real (fun k d i => a (ix4 (entryOf t) k.castSucc i d)) (fun k d i => b (ix4 (entryOf t) k.castSucc i d))
    (fun k d i => a (ix4 (entryOf t) k.succ i d)) _ _ _ h0 h1 h2 y]
  show _ = ((_root_.Chamfer.entry a b ((((cfg0.win 3).blk t).view.emb y : S16x1x8x128.Idx) 0) : ℝ) : EReal)
  rw [hn]
  -- the sums over the first 32 naturals are the sums over the 32 timesteps, term by term
  congr 1

omit hA hB in
/-- An index of the output array is in point t's block iff each coordinate is in the block's range. -/
theorem mem_blk (t : Fin cfg0.N) (i : S16x1x8x128.Idx) :
    i ∈ ((cfg0.win 3).blk t).view.set ↔ ∀ x : Fin 4, win0_3.index t x * S1x1x8x128.size x ≤ (i x).val ∧ (i x).val < win0_3.index t x * S1x1x8x128.size x + S1x1x8x128.size x := by
  show i ∈ ((View.whole main_v5).slice (win0_3.rect t)).set ↔ _
  rw [View.set_slice_whole, Rect.mem_set_unit]
  exact Iff.rfl

omit hA hB in
/-- Every index of the output array lies in the block of the point named by its first coordinate. -/
theorem cover (i : S16x1x8x128.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 8 := (i 2).isLt
  have h3 : (i 3).val < 128 := (i 3).isLt
  let t : Fin cfg0.N := ⟨(i 0).val, by rw [show cfg0.N = 16 from N_0]; exact h0⟩
  refine ⟨t, flush0_3 t, ?_⟩
  obtain ⟨e00, e01, e02, e03, e10, e11, e12, e13, e20, e21, e22, e23, e30, e31, e32, e33⟩ := idx_facts t
  have ht : t.val = (i 0).val := rfl
  rw [mem_blk]
  intro x
  match x with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 8 ≤ (i 2).val ∧ (i 2).val < win0_3.index t (2 : Fin 4) * 8 + 8; omega
  | ⟨3, _⟩ => show win0_3.index t (3 : Fin 4) * 128 ≤ (i 3).val ∧ (i 3).val < win0_3.index t (3 : Fin 4) * 128 + 128; omega

/-- The output array after the region. -/
theorem final : (dats m 0 c).arrAt 3 cfg0.N = G a b :=
  (dats m 0 c).arrAt_eq_of_cover 3 (G a b) (fun t _ => flushed_eq m a b c hA hB t) cover

/-! ## The host lines after the region -/

omit hA hB in
theorem lit_scale : Ideal.ofBits .f32 0x36000000#32 = ((1 / 524288 : ℝ) : EReal) := by
  simp [Ideal.ofBits, Ideal.ieee, -EReal.coe_mul]; norm_num

omit hA hB in
theorem coe_sum16 (f : Fin 16 → ℝ) : (∑ n, ((f n : ℝ) : EReal)) = ((∑ n, f n : ℝ) : EReal) := by
  induction (Finset.univ : Finset (Fin 16)) using Finset.induction_on with
  | empty => simp
  | insert x s hx ih => rw [Finset.sum_insert hx, Finset.sum_insert hx, ih, EReal.coe_add]

omit hA hB in
/-- Entry (n,0,0,0) of each output block, summed over n and scaled by 2^-19. -/
theorem tail_of (e : Fin 16 → ℝ) (ARR : S16x1x8x128.Idx → EReal) (hARR : ∀ n : Fin 16, ARR (ix4 n 0 0 0) = ((e n : ℝ) : EReal)) :
    mulf (F := Ideal)
      (Host.reduceAdd (F := Ideal)
        (shapeCast S16x1 (extractStridedSlice S16x1x1x1 ![0, 0, 0, 0] ARR slices_S16x1x8x128_S16x1x1x1_0_0_0_0) shapeCasts_S16x1x1x1_S16x1)
        (constant (F := Ideal) S_ FTy.f32 0#32) reducesTo_S16x1_S_d0_1 h_S_)
      (constant (F := Ideal) S_ FTy.f32 0x36000000#32) = fun _ => (((∑ n, e n) * (1 / 524288) : ℝ) : EReal) := by
  funext y
  rw [mulf_apply, constant_apply, lit_scale]
  unfold Host.reduceAdd
  rw [Ideal.hostReduceAdd_def, Ideal.hostReduceAdd_total _ (fun b => b.elim0), constant_apply, Ideal.ofBits_zero_f32, zero_add, sum_idx2]
  have hx : ∀ (n : Fin 16) (z : Fin 1),
      shapeCast S16x1 (extractStridedSlice S16x1x1x1 ![0, 0, 0, 0] ARR slices_S16x1x8x128_S16x1x1x1_0_0_0_0) shapeCasts_S16x1x1x1_S16x1 (ix2 n z)
        = ((e n : ℝ) : EReal) := by
    intro n z
    rw [shapeCast_apply _ _ _ (ix4 n 0 0 0) (by
        rw [Shape.rowMajor_val_four, Shape.rowMajor_val_two]
        show ((n.val * 1 + 0) * 1 + 0) * 1 + 0 = n.val * 1 + z.val
        have := z.isLt
        omega),
      extractStridedSlice_apply _ _ _ _ (ix4 n 0 0 0) (by
        intro x
        match x with
        | ⟨0, _⟩ => exact (Nat.zero_add _).symm
        | ⟨1, _⟩ => rfl
        | ⟨2, _⟩ => rfl
        | ⟨3, _⟩ => rfl)]
    exact hARR n
  simp only [hx, Fin.sum_univ_one]
  rw [coe_sum16, ← EReal.coe_mul]

/-- The program's result: the loss. -/
theorem tail_value :
    Pipeline.afterTail₀ cfgs (dats m) 0 (V0 m) [hostOps1] c main_v9 = fun _ => ((_root_.Chamfer.loss a b : ℝ) : EReal) := by
  unfold Pipeline.afterTail₀
  show StableHlo.after hostOps1 _ (Proc.devRef .tc main_v9) = _
  after_results
  rw [Pipeline.withArrays_arr spec0 launch0.win.arr_inj c _ _ 3, final m a b c hA hB]
  exact tail_of (fun n => _root_.Chamfer.entry a b n) (G a b) (fun n => rfl)

end Cert.KernelIdeal.Chamfer

end
-- ==== Proof.KFinal.lean ====
import proofs.«181722_g55396488184381_feedfinal_273_31_alg».proof.Proof.KRun

/- The kernel program's run: it terminates with the loss in its result and its arguments unchanged. -/

set_option maxRecDepth 16384

noncomputable section

namespace Cert.KernelIdeal.Chamfer

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- With real argument arrays on every device, every execution ends with the result holding the loss of
    that device's arrays, and the arguments as they were. -/
theorem run (a b : Dev nD → _root_.Chamfer.SArg.Idx → ℝ)
    (hA : ∀ c : Dev nD, m ((c.tc : Thread nD τ).loc main_arg0) = fun i => ((a c i : ℝ) : EReal))
    (hB : ∀ c : Dev nD, m ((c.tc : Thread nD τ).loc main_arg1) = fun i => ((b c i : ℝ) : EReal)) :
    θ_run defs (onTc (τ := τ) (main (F := Ideal))) ⟨m, fun _ => 0, ρ⟩ (fun r => ∀ c : Dev nD,
      r.2.mem ((c.tc : Thread nD τ).loc main_v9) = (fun _ => ((_root_.Chamfer.loss (a c) (b c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v9 (Pipeline.mem_restRefs_of main_v9 (by decide) (by decide))).trans
        (tail_value m (a c) (b c) c (hA c) (hB c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Chamfer

end
-- ==== Proof.Finite.lean ====
/- Finiteness of the inputs. The precondition says that every entry of both argument arrays has
   absolute value below +∞. Over the extended reals that leaves only the real numbers, so each
   array is the coercion of an array of reals. -/
import proofs.«181722_g55396488184381_feedfinal_273_31_alg».proof.Pre_finite_inputs
import proofs.«181722_g55396488184381_feedfinal_273_31_alg».proof.Proof.RealSpec
import Idealize.ShloMosaic.Lib.ReduceAll

noncomputable section

namespace Chamfer

open Idealize.ShloMosaic Idealize.ShloMosaic.ValueIdx

/-- The shape of a scalar has a single index. -/
instance : Subsingleton Cert.Pre_finite_inputs.S_.Idx := ⟨fun _ _ => funext fun d => d.elim0⟩

/-- An extended real whose absolute value max x (-x) lies strictly below +∞ is a real number:
    at +∞ and at -∞ the absolute value is +∞ itself. -/
theorem real_of_abs_lt_top (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array all of whose entries pass the test |x| < +∞ is the coercion of a real array. -/
theorem all_real [Cert.Pre_finite_inputs.Facts]
    (x : FVec Ideal Cert.Pre_finite_inputs.S16x33x512x2 .f32)
    (h : ∀ i, cmpf .olt (Host.absf x)
        (broadcastInDim Cert.Pre_finite_inputs.S16x33x512x2 ![]
          Cert.Pre_finite_inputs.Facts.bcast_S_S16x33x512x2
          (constant Cert.Pre_finite_inputs.S_ .f32 0x7F800000#32)) i = 1#1) :
    ∃ a : SArg.Idx → ℝ, x = fun i => ((a i : ℝ) : EReal) := by
  have hr : ∀ i, ∃ r : ℝ, x i = (r : EReal) := fun i => real_of_abs_lt_top (x i) (h i)
  choose a ha using hr
  exact ⟨a, funext ha⟩

/-- Under the precondition both argument arrays are real-valued. -/
theorem real_of_pre [Cert.Pre_finite_inputs.Facts]
    (x y : FVec Ideal Cert.Pre_finite_inputs.S16x33x512x2 .f32)
    (h : Cert.Pre_finite_inputs.fn (F := Ideal) x y = fun _ => 1#1) :
    (∃ a : SArg.Idx → ℝ, x = fun i => ((a i : ℝ) : EReal)) ∧
    (∃ b : SArg.Idx → ℝ, y = fun i => ((b i : ℝ) : EReal)) := by
  have h0 := congrFun h ix0
  dsimp only [Cert.Pre_finite_inputs.fn] at h0
  obtain ⟨hx, hy⟩ := IntOp.andi_eq_one.1 h0
  exact ⟨all_real x (fun i => Host.reduce_andi_all _ _ _ _ ix0 hx i),
    all_real y (fun i => Host.reduce_andi_all _ _ _ _ ix0 hy i)⟩

end Chamfer

end
-- ==== Proof.RefAux.lean ====
/- Extended-real facts for reading the reference program: the float words of its literals as reals,
   coercions of finite sums and finite infima from the reals, and the square root of a coerced real. -/
import Mathlib
import Idealize.ShloMosaic.PureOps.Ideal.Laws

noncomputable section

namespace Chamfer.Ref

open Idealize.ShloMosaic

/-- The word 0x44870000 is 1080. -/
theorem lit_1080 : Ideal.ofBits .f32 0x44870000#32 = ((1080 : ℝ) : EReal) := by
  simp [Ideal.ofBits, Ideal.ieee, -EReal.coe_mul]; norm_num

/-- The word 0x44F00000 is 1920. -/
theorem lit_1920 : Ideal.ofBits .f32 0x44F00000#32 = ((1920 : ℝ) : EReal) := by
  simp [Ideal.ofBits, Ideal.ieee, -EReal.coe_mul]; norm_num

/-- The word 0x40000000 is 2. -/
theorem lit_2 : Ideal.ofBits .f32 0x40000000#32 = ((2 : ℝ) : EReal) := by
  simp [Ideal.ofBits, Ideal.ieee, -EReal.coe_mul]; norm_num

/-- The word 0x46000000 is 8192. -/
theorem lit_8192 : Ideal.ofBits .f32 0x46000000#32 = ((8192 : ℝ) : EReal) := by
  simp [Ideal.ofBits, Ideal.ieee, -EReal.coe_mul]; norm_num

/-- The word 0x42000000 is 32. -/
theorem lit_32 : Ideal.ofBits .f32 0x42000000#32 = ((32 : ℝ) : EReal) := by
  simp [Ideal.ofBits, Ideal.ieee, -EReal.coe_mul]; norm_num

/-- The word 0x3F000000 is one half. -/
theorem lit_half : Ideal.ofBits .f32 0x3F000000#32 = ((1 / 2 : ℝ) : EReal) := by
  simp [Ideal.ofBits, Ideal.ieee, -EReal.coe_mul]; norm_num

/-- The word 0x7F800000 is plus infinity. -/
theorem lit_top : Ideal.ofBits .f32 0x7F800000#32 = (⊤ : EReal) := by
  simp [Ideal.ofBits, Ideal.ieee]

/-- The zero word is the real zero. -/
theorem lit_0 : Ideal.ofBits .f32 0x00000000#32 = ((0 : ℝ) : EReal) := by
  rw [Ideal.ofBits_zero_f32]; rfl

/-- A finite sum of reals, coerced, is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion from the reals preserves binary maxima … -/
theorem ecoe_max (x y : ℝ) : ((max x y : ℝ) : EReal) = max ((x : ℝ) : EReal) ((y : ℝ) : EReal) :=
  EReal.coe_strictMono.monotone.map_max

/-- … and binary minima. -/
theorem ecoe_min (x y : ℝ) : ((min x y : ℝ) : EReal) = min ((x : ℝ) : EReal) ((y : ℝ) : EReal) :=
  EReal.coe_strictMono.monotone.map_min

/-- A monotone map between linear orders commutes with a finite nonempty infimum: the infimum is attained. -/
theorem mono_inf' {α β ι : Type*} [LinearOrder α] [LinearOrder β] (g : α → β) (hg : Monotone g) (s : Finset ι)
    (hs : s.Nonempty) (f : ι → α) : g (s.inf' hs f) = s.inf' hs (fun i => g (f i)) := by
  apply le_antisymm
  · exact Finset.le_inf' hs _ fun j hj => hg (Finset.inf'_le f hj)
  · obtain ⟨i0, hi0, he⟩ := Finset.exists_mem_eq_inf' hs f
    rw [he]
    exact Finset.inf'_le (fun i => g (f i)) hi0

/-- A finite nonempty infimum of reals, coerced, is the infimum of the coercions. -/
theorem coe_inf' {ι : Type*} (s : Finset ι) (hs : s.Nonempty) (f : ι → ℝ) :
    ((s.inf' hs f : ℝ) : EReal) = s.inf' hs (fun i => ((f i : ℝ) : EReal)) :=
  mono_inf' (fun x : ℝ => (x : EReal)) EReal.coe_strictMono.monotone s hs f

/-- The fold of min from plus infinity over a nonempty finite family of extended reals is its infimum. -/
theorem fold_min_top {ι : Type*} (s : Finset ι) (hs : s.Nonempty) (g : ι → EReal) :
    s.fold min ⊤ g = s.inf' hs g := by
  rw [Finset.inf'_eq_inf hs g]; rfl

/-- The nonnegative part's square root is monotone, so it commutes with a finite nonempty infimum. -/
theorem sqrt_max_inf' {ι : Type*} (s : Finset ι) (hs : s.Nonempty) (f : ι → ℝ) :
    Real.sqrt (max (s.inf' hs f) 0) = s.inf' hs (fun i => Real.sqrt (max (f i) 0)) := by
  have hm : Monotone fun x : ℝ => Real.sqrt (max x 0) :=
    fun x y hxy => Real.sqrt_le_sqrt (max_le_max hxy le_rfl)
  exact mono_inf' (fun x : ℝ => Real.sqrt (max x 0)) hm s hs f

/-- The ideal square root of the nonnegative part of a real is the real square root of that part. -/
theorem sqrt_max_coe (r : ℝ) :
    Ideal.sqrt (max ((r : ℝ) : EReal) ((0 : ℝ) : EReal)) = ((Real.sqrt (max r 0) : ℝ) : EReal) := by
  rw [← ecoe_max, Ideal.sqrt_coe, if_neg (not_lt.2 (le_max_right r 0))]

/-- Dividing a real by a nonzero real, in the ideal arithmetic, is the real quotient. -/
theorem div_coe_coe (x y : ℝ) (hy : y ≠ 0) : Ideal.div ((x : ℝ) : EReal) ((y : ℝ) : EReal) = ((x / y : ℝ) : EReal) := by
  rw [Ideal.div_coe hy, ← EReal.coe_mul, mul_one_div]

end Chamfer.Ref

end
-- ==== Proof.RefD2.lean ====
/- The reference program read up to its matrix of distances: at batch entry n, timestep k, predicted
   point i and target point j the reference's squared distance is the specification's, and its
   distance the square root of the nonnegative part. The reference expands the square,
   |p|^2 + |q|^2 - 2 p.q; over the reals that is (px - qx)^2 + (py - qy)^2. -/
import proofs.«181722_g55396488184381_feedfinal_273_31_alg».proof.Proof.Gen.ReferenceIdeal.Read
import proofs.«181722_g55396488184381_feedfinal_273_31_alg».proof.Proof.RealSpec
import proofs.«181722_g55396488184381_feedfinal_273_31_alg».proof.Proof.RefAux

noncomputable section

namespace Chamfer.Ref

open Cert.ReferenceIdeal Cert.ReferenceIdeal.Gen Cert.ReferenceIdeal.Read Idealize.ShloMosaic Idealize.ShloMosaic.ValueIdx

/-- A real array as the contents of an argument buffer. -/
abbrev inp (a : SArg.Idx → ℝ) : (⟨S16x33x512x2, .f32⟩ : BufTy).Contents (Elt Ideal) := fun i => ((a i : ℝ) : EReal)

variable (a b : SArg.Idx → ℝ)

/-! ## Where the layout operations read -/

theorem idx_v2_ix3 (n : Fin 16) (t : Fin 33) (i : Fin 512) : idx_main_v2 (ix3 n t i) = ix4 n t i (0 : Fin 1) := by
  funext c; apply Fin.ext
  have hn := n.isLt; have ht := t.isLt; have hi := i.isLt
  match c with
  | ⟨0, _⟩ => show ((n.val * 33 + t.val) * 512 + i.val) / 16896 = n.val; omega
  | ⟨1, _⟩ => show ((n.val * 33 + t.val) * 512 + i.val) / 512 % 33 = t.val; omega
  | ⟨2, _⟩ => show ((n.val * 33 + t.val) * 512 + i.val) / 1 % 512 = i.val; omega
  | ⟨3, _⟩ => rfl

theorem idx_v5_ix3 (n : Fin 16) (t : Fin 33) (i : Fin 512) : idx_main_v5 (ix3 n t i) = ix4 n t i (0 : Fin 1) :=
  idx_v2_ix3 n t i

theorem idx_v1_ix4 (n : Fin 16) (t : Fin 33) (i : Fin 512) : idx_main_v1 (ix4 n t i (0 : Fin 1)) = ix4 n t i (0 : Fin 2) := by
  funext c; apply Fin.ext
  match c with
  | ⟨0, _⟩ => rfl
  | ⟨1, _⟩ => rfl
  | ⟨2, _⟩ => rfl
  | ⟨3, _⟩ => rfl

theorem idx_v4_ix4 (n : Fin 16) (t : Fin 33) (i : Fin 512) : idx_main_v4 (ix4 n t i (0 : Fin 1)) = ix4 n t i (1 : Fin 2) := by
  funext c; apply Fin.ext
  match c with
  | ⟨0, _⟩ => rfl
  | ⟨1, _⟩ => rfl
  | ⟨2, _⟩ => rfl
  | ⟨3, _⟩ => rfl

theorem idx_v7_ix4 (n : Fin 16) (t : Fin 33) (i : Fin 512) : idx_main_v7 (ix4 n t i (0 : Fin 1)) = ix3 n t i := by
  funext c; apply Fin.ext
  match c with
  | ⟨0, _⟩ => rfl
  | ⟨1, _⟩ => rfl
  | ⟨2, _⟩ => rfl

theorem idx_v8_ix4 (n : Fin 16) (t : Fin 33) (i : Fin 512) : idx_main_v8 (ix4 n t i (0 : Fin 1)) = ix3 n t i :=
  idx_v7_ix4 n t i

theorem idx_v10_ix4 (n : Fin 16) (k : Fin 32) (i : Fin 512) (c : Fin 2) :
    idx_main_v10 (ix4 n k i c) = ix4 n k.castSucc i c := by
  funext d; apply Fin.ext
  match d with
  | ⟨0, _⟩ => rfl
  | ⟨1, _⟩ => rfl
  | ⟨2, _⟩ => rfl
  | ⟨3, _⟩ => rfl

theorem idx_v11_ix4 (n : Fin 16) (k : Fin 32) (j : Fin 512) (c : Fin 2) :
    idx_main_v11 (ix4 n k j c) = ix4 n k.succ j c := by
  funext d; apply Fin.ext
  match d with
  | ⟨0, _⟩ => rfl
  | ⟨1, _⟩ => show 1 + k.val = k.val + 1; omega
  | ⟨2, _⟩ => rfl
  | ⟨3, _⟩ => rfl

theorem idx_v13_ix3 (n : Fin 16) (k : Fin 32) (i : Fin 512) (c : Fin 2) : idx_main_v13 (ix3 n k i) c = ix4 n k i c := by
  funext d; apply Fin.ext
  match d with
  | ⟨0, _⟩ => rfl
  | ⟨1, _⟩ => rfl
  | ⟨2, _⟩ => rfl
  | ⟨3, _⟩ => rfl

theorem idx_v15_ix3 (n : Fin 16) (k : Fin 32) (i : Fin 512) (c : Fin 2) : idx_main_v15 (ix3 n k i) c = ix4 n k i c :=
  idx_v13_ix3 n k i c

theorem lidx_v16_ix4 (n : Fin 16) (k : Fin 32) (i j : Fin 512) (c : Fin 2) :
    lidx_main_v16 (ix4 n k i j) c = ix4 n k i c := by
  funext d; apply Fin.ext
  match d with
  | ⟨0, _⟩ => rfl
  | ⟨1, _⟩ => rfl
  | ⟨2, _⟩ => rfl
  | ⟨3, _⟩ => rfl

theorem ridx_v16_ix4 (n : Fin 16) (k : Fin 32) (i j : Fin 512) (c : Fin 2) :
    ridx_main_v16 (ix4 n k i j) c = ix4 n k j c := by
  funext d; apply Fin.ext
  match d with
  | ⟨0, _⟩ => rfl
  | ⟨1, _⟩ => rfl
  | ⟨2, _⟩ => rfl
  | ⟨3, _⟩ => rfl

theorem idx_v17_v19_ix4 (n : Fin 16) (k : Fin 32) (i j : Fin 512) :
    idx_main_v17 (idx_main_v19 (ix4 n k i j)) = ix3 n k i := by
  funext d; apply Fin.ext
  match d with
  | ⟨0, _⟩ => rfl
  | ⟨1, _⟩ => rfl
  | ⟨2, _⟩ => rfl

theorem idx_v18_v20_ix4 (n : Fin 16) (k : Fin 32) (i j : Fin 512) :
    idx_main_v18 (idx_main_v20 (ix4 n k i j)) = ix3 n k j := by
  funext d; apply Fin.ext
  match d with
  | ⟨0, _⟩ => rfl
  | ⟨1, _⟩ => rfl
  | ⟨2, _⟩ => rfl

/-! ## The clipped predicted point -/

/-- The first clip's result at (n, t, i) is the specification's clipped first coordinate. -/
theorem v3_eq (n : Fin 16) (t : Fin 33) (i : Fin 512) :
    val_main_v3 (F := Ideal) (inp a) (inp b) (ix3 n t i) = ((px a b n t i : ℝ) : EReal) := by
  rw [val_main_v3_apply, val_main_call0_v4_apply, val_main_call0_v3_apply, val_main_cst_0_apply,
    val_main_call0_v2_apply, val_main_call0_v1_apply, val_main_call0_v0_apply, val_main_cst_apply,
    val_main_v2_apply, val_main_v1_apply, val_main_v0_apply, idx_v2_ix3, idx_v1_ix4]
  simp only [Ideal.minimumf_def, Ideal.maximumf_def, Ideal.addf_def, Ideal.ofBits_def, lit_1080, lit_0]
  rw [← EReal.coe_add, ← ecoe_max, ← ecoe_min]
  rfl

/-- The second clip's result at (n, t, i) is the specification's clipped second coordinate. -/
theorem v6_eq (n : Fin 16) (t : Fin 33) (i : Fin 512) :
    val_main_v6 (F := Ideal) (inp a) (inp b) (ix3 n t i) = ((py a b n t i : ℝ) : EReal) := by
  rw [val_main_v6_apply, val_main_call1_v4_apply, val_main_call1_v3_apply, val_main_cst_2_apply,
    val_main_call1_v2_apply, val_main_call1_v1_apply, val_main_call1_v0_apply, val_main_cst_1_apply,
    val_main_v5_apply, val_main_v4_apply, val_main_v0_apply, idx_v5_ix3, idx_v4_ix4]
  simp only [Ideal.minimumf_def, Ideal.maximumf_def, Ideal.addf_def, Ideal.ofBits_def, lit_1920, lit_0]
  rw [← EReal.coe_add, ← ecoe_max, ← ecoe_min]
  rfl

/-- The two clipped coordinates joined along the last axis: coordinate 0 is the first. -/
theorem v9_zero (x0 x1 : (⟨S16x33x512x2, .f32⟩ : BufTy).Contents (Elt Ideal)) (n : Fin 16) (t : Fin 33) (i : Fin 512) :
    val_main_v9 (F := Ideal) x0 x1 (ix4 n t i (0 : Fin 2)) = val_main_v7 (F := Ideal) x0 x1 (ix4 n t i (0 : Fin 1)) := by
  unfold val_main_v9
  generalize val_main_v7 (F := Ideal) x0 x1 = y7
  generalize val_main_v8 (F := Ideal) x0 x1 = y8
  exact concatenate_pair_apply_left 3 y7 y8 concatenates_S16x33x512x1_S16x33x512x1_S16x33x512x2_d3 _ rfl _ (fun c => by
    match c with
    | ⟨0, _⟩ => rfl
    | ⟨1, _⟩ => rfl
    | ⟨2, _⟩ => rfl
    | ⟨3, _⟩ => rfl)

/-- … and coordinate 1 is the second. -/
theorem v9_one (x0 x1 : (⟨S16x33x512x2, .f32⟩ : BufTy).Contents (Elt Ideal)) (n : Fin 16) (t : Fin 33) (i : Fin 512) :
    val_main_v9 (F := Ideal) x0 x1 (ix4 n t i (1 : Fin 2)) = val_main_v8 (F := Ideal) x0 x1 (ix4 n t i (0 : Fin 1)) := by
  unfold val_main_v9
  generalize val_main_v7 (F := Ideal) x0 x1 = y7
  generalize val_main_v8 (F := Ideal) x0 x1 = y8
  exact concatenate_pair_apply_right 3 y7 y8 concatenates_S16x33x512x1_S16x33x512x1_S16x33x512x2_d3 _ rfl rfl _
    (fun c hc => by
      match c with
      | ⟨0, _⟩ => rfl
      | ⟨1, _⟩ => rfl
      | ⟨2, _⟩ => rfl
      | ⟨3, _⟩ => exact absurd rfl hc)
    rfl

/-- The predicted point's first coordinate, as the reference holds it for timestep k. -/
theorem v10_x (n : Fin 16) (k : Fin 32) (i : Fin 512) :
    val_main_v10 (F := Ideal) (inp a) (inp b) (ix4 n k i (0 : Fin 2)) = ((px a b n k.castSucc i : ℝ) : EReal) := by
  rw [val_main_v10_apply, idx_v10_ix4, v9_zero, val_main_v7_apply, idx_v7_ix4, v3_eq]

/-- The predicted point's second coordinate, as the reference holds it for timestep k. -/
theorem v10_y (n : Fin 16) (k : Fin 32) (i : Fin 512) :
    val_main_v10 (F := Ideal) (inp a) (inp b) (ix4 n k i (1 : Fin 2)) = ((py a b n k.castSucc i : ℝ) : EReal) := by
  rw [val_main_v10_apply, idx_v10_ix4, v9_one, val_main_v8_apply, idx_v8_ix4, v6_eq]

/-- The target point: the centre one timestep later. -/
theorem v11_eq (n : Fin 16) (k : Fin 32) (j : Fin 512) (c : Fin 2) :
    val_main_v11 (F := Ideal) (inp a) (ix4 n k j c) = ((a (ix4 n k.succ j c) : ℝ) : EReal) := by
  rw [val_main_v11_apply, idx_v11_ix4]

/-! ## The three terms of the expanded square -/

/-- The predicted point's squared norm. -/
theorem v13_eq (n : Fin 16) (k : Fin 32) (i : Fin 512) :
    val_main_v13 (F := Ideal) (inp a) (inp b) (ix3 n k i)
      = ((px a b n k.castSucc i * px a b n k.castSucc i + py a b n k.castSucc i * py a b n k.castSucc i : ℝ) : EReal) := by
  rw [val_main_v13_apply, Fin.sum_univ_two, val_main_v12_apply, val_main_v12_apply, idx_v13_ix3, idx_v13_ix3,
    v10_x, v10_y, val_main_cst_3_apply]
  simp only [Ideal.mulf_def, Ideal.ofBits_def, Ideal.ofBits_zero_f32, zero_add]
  rw [← EReal.coe_mul, ← EReal.coe_mul, ← EReal.coe_add]

/-- The target point's squared norm. -/
theorem v15_eq (n : Fin 16) (k : Fin 32) (j : Fin 512) :
    val_main_v15 (F := Ideal) (inp a) (ix3 n k j)
      = ((a (ix4 n k.succ j 0) * a (ix4 n k.succ j 0) + a (ix4 n k.succ j 1) * a (ix4 n k.succ j 1) : ℝ) : EReal) := by
  rw [val_main_v15_apply, Fin.sum_univ_two, val_main_v14_apply, val_main_v14_apply, idx_v15_ix3, idx_v15_ix3,
    v11_eq, v11_eq, val_main_cst_4_apply]
  simp only [Ideal.mulf_def, Ideal.ofBits_def, Ideal.ofBits_zero_f32, zero_add]
  rw [← EReal.coe_mul, ← EReal.coe_mul, ← EReal.coe_add]

/-- The inner product of the predicted and the target point. -/
theorem v16_eq (n : Fin 16) (k : Fin 32) (i j : Fin 512) :
    val_main_v16 (F := Ideal) (inp a) (inp b) (ix4 n k i j)
      = ((px a b n k.castSucc i * a (ix4 n k.succ j 0) + py a b n k.castSucc i * a (ix4 n k.succ j 1) : ℝ) : EReal) := by
  rw [val_main_v16_apply, Fin.sum_univ_two, lidx_v16_ix4, lidx_v16_ix4, ridx_v16_ix4, ridx_v16_ix4,
    v10_x, v10_y, v11_eq, v11_eq]
  rw [← EReal.coe_mul, ← EReal.coe_mul, ← EReal.coe_add]

/-! ## The squared distance and the distance -/

/-- The reference's squared distance is the specification's. -/
theorem v24_eq (n : Fin 16) (k : Fin 32) (i j : Fin 512) :
    val_main_v24 (F := Ideal) (inp a) (inp b) (ix4 n k i j) = ((sq a b n k i j : ℝ) : EReal) := by
  rw [val_main_v24_apply, val_main_v21_apply, val_main_v19_apply, val_main_v17_apply, idx_v17_v19_ix4, v13_eq,
    val_main_v20_apply, val_main_v18_apply, idx_v18_v20_ix4, v15_eq,
    val_main_v23_apply, val_main_v22_apply, val_main_cst_5_apply, v16_eq]
  simp only [Ideal.subf_def, Ideal.addf_def, Ideal.mulf_def, Ideal.ofBits_def, lit_2]
  rw [← EReal.coe_add, ← EReal.coe_mul, ← EReal.coe_sub]
  refine congrArg (fun r : ℝ => (r : EReal)) ?_
  unfold sq
  ring

/-- The reference's distance is the square root of the squared distance's nonnegative part. -/
theorem v27_eq (n : Fin 16) (k : Fin 32) (i j : Fin 512) :
    val_main_v27 (F := Ideal) (inp a) (inp b) (ix4 n k i j) = ((Real.sqrt (max (sq a b n k i j) 0) : ℝ) : EReal) := by
  rw [val_main_v27_apply, val_main_v26_apply, val_main_v25_apply, val_main_cst_6_apply, v24_eq]
  simp only [Ideal.hostUnary_sqrt_def, Ideal.maximumf_def, Ideal.ofBits_def, lit_0]
  exact sqrt_max_coe _

end Chamfer.Ref

end
-- ==== Proof.RefMin.lean ====
/- The reference's two minima: over the target points j for a fixed predicted point i, and over the
   predicted points i for a fixed target point j. The reference takes the minimum of the distances
   from plus infinity; the specification takes the square root of the nonnegative part of the least
   squared distance. The square root of the nonnegative part is monotone, so the two agree. -/
import proofs.«181722_g55396488184381_feedfinal_273_31_alg».proof.Proof.RefD2

noncomputable section

namespace Chamfer.Ref

open Cert.ReferenceIdeal Cert.ReferenceIdeal.Gen Cert.ReferenceIdeal.Read Idealize.ShloMosaic Idealize.ShloMosaic.ValueIdx

variable (a b : SArg.Idx → ℝ)

/-- Dropping the last axis of the distance matrix's shape. -/
theorem red3 : S16x32x512x512.Reduces [3] S16x32x512 := by decide

/-- Dropping the third axis of the distance matrix's shape. -/
theorem red2 : S16x32x512x512.Reduces [2] S16x32x512 := by decide

/-- The index (n, k, i) with j put back on the last axis. -/
theorem lift3 (n : Fin 16) (k : Fin 32) (i : Fin 512) (j : Fin (S16x32x512x512.size 3)) :
    red3.lift (ix3 n k i) j = ix4 n k i (⟨j.val, j.isLt⟩ : Fin 512) := by
  funext c; apply Fin.ext
  match c with
  | ⟨0, _⟩ => rfl
  | ⟨1, _⟩ => rfl
  | ⟨2, _⟩ => rfl
  | ⟨3, _⟩ => rfl

/-- The index (n, k, j) with i put back on the third axis. -/
theorem lift2 (n : Fin 16) (k : Fin 32) (j : Fin 512) (i : Fin (S16x32x512x512.size 2)) :
    red2.lift (ix3 n k j) i = ix4 n k (⟨i.val, i.isLt⟩ : Fin 512) j := by
  funext c; apply Fin.ext
  match c with
  | ⟨0, _⟩ => rfl
  | ⟨1, _⟩ => rfl
  | ⟨2, _⟩ => rfl
  | ⟨3, _⟩ => rfl

/-- The least distance from plus infinity over a family of distances is the distance of the least squared distance. -/
theorem fold_dist (f : Fin 512 → ℝ) :
    (Finset.univ : Finset (Fin 512)).fold min (Ideal.ofBits .f32 0x7F800000#32) (fun j => ((Real.sqrt (max (f j) 0) : ℝ) : EReal))
      = ((Real.sqrt (max (Finset.univ.inf' Finset.univ_nonempty f) 0) : ℝ) : EReal) := by
  rw [lit_top, fold_min_top _ Finset.univ_nonempty]
  exact (coe_inf' Finset.univ Finset.univ_nonempty fun j => Real.sqrt (max (f j) 0)).symm.trans
    (congrArg (fun r : ℝ => (r : EReal)) (sqrt_max_inf' Finset.univ Finset.univ_nonempty f).symm)

/-- The minimum over the target points: the distance from predicted point i to its nearest target. -/
theorem v28_eq (n : Fin 16) (k : Fin 32) (i : Fin 512) :
    val_main_v28 (F := Ideal) (inp a) (inp b) (ix3 n k i) = ((toTarget a b n k i : ℝ) : EReal) := by
  unfold val_main_v28
  rw [Host.reduce_eq_fold_single FloatOps.minimumf _ _ reducesTo_S16x32x512x512_S16x32x512_d3 red3 h_S_, val_main_cst_7_apply]
  have hf : (val_main_v27 (F := Ideal) (inp a) (inp b) ∘ red3.lift (ix3 n k i))
      = fun j : Fin 512 => ((Real.sqrt (max (sq a b n k i j) 0) : ℝ) : EReal) :=
    funext fun j => by rw [Function.comp_apply, lift3, v27_eq]; rfl
  refine Eq.trans (congrArg (fun f => Finset.fold min (Ideal.ofBits .f32 0x7F800000#32) f (Finset.univ : Finset (Fin 512))) hf) ?_
  exact fold_dist fun j => sq a b n k i j

/-- The minimum over the predicted points: the distance from target point j to its nearest predicted point. -/
theorem v32_eq (n : Fin 16) (k : Fin 32) (j : Fin 512) :
    val_main_v32 (F := Ideal) (inp a) (inp b) (ix3 n k j) = ((toPred a b n k j : ℝ) : EReal) := by
  unfold val_main_v32
  rw [Host.reduce_eq_fold_single FloatOps.minimumf _ _ reducesTo_S16x32x512x512_S16x32x512_d2 red2 h_S_, val_main_cst_10_apply]
  have hf : (val_main_v27 (F := Ideal) (inp a) (inp b) ∘ red2.lift (ix3 n k j))
      = fun i : Fin 512 => ((Real.sqrt (max (sq a b n k i j) 0) : ℝ) : EReal) :=
    funext fun i => by rw [Function.comp_apply, lift2, v27_eq]; rfl
  refine Eq.trans (congrArg (fun f => Finset.fold min (Ideal.ofBits .f32 0x7F800000#32) f (Finset.univ : Finset (Fin 512))) hf) ?_
  exact fold_dist fun i => sq a b n k i j

end Chamfer.Ref

end
-- ==== Proof.RefLoss.lean ====
/- The reference's means: for each timestep the two sums over batch entries and points divided by
   8192, their half sum, then the sum over the 32 timesteps divided by 32. Over the reals that is
   the total of all nearest distances divided by 2 * 8192 * 32 = 524288, the specification's loss. -/
import proofs.«181722_g55396488184381_feedfinal_273_31_alg».proof.Proof.RefMin

noncomputable section

namespace Chamfer.Ref

open Cert.ReferenceIdeal Cert.ReferenceIdeal.Gen Cert.ReferenceIdeal.Read Idealize.ShloMosaic Idealize.ShloMosaic.ValueIdx

variable (a b : SArg.Idx → ℝ)

/-! ## Sums over index sets as sums over coordinates -/

/-- A sum over a rank-1 index set is the sum over its coordinate. -/
theorem sum_idx1 {M : Type*} [AddCommMonoid M] {n : Nat} (f : (⟨1, ![n]⟩ : Shape).Idx → M) :
    ∑ i, f i = ∑ c : Fin n, f (ix1 c) :=
  Fintype.sum_equiv ⟨fun i => i 0, fun c => ix1 c, fun i => (eq_ix1 i).symm, fun _ => rfl⟩ _ _
    (fun i => congrArg f (eq_ix1 i))

/-- Dropping axes 0 and 2 of (n, k, p) leaves the coordinate k. -/
theorem drop02_val (i : S16x32x512.Idx) :
    ((reducesTo_S16x32x512_S32_d0_2.drop i) 0 : Nat) = (i 1 : Nat) :=
  reducesTo_S16x32x512_S32_d0_2.drop_apply_val_of_eq i 0 1

/-- The indices that drop to timestep k are the (n, k, p): their sum is the double sum over n and p. -/
theorem sum_drop02 (x : S16x32x512.Idx → EReal) (k : Fin 32) :
    ∑ i ∈ Finset.univ.filter (fun i => reducesTo_S16x32x512_S32_d0_2.drop i = ix1 k), x i
      = ∑ n : Fin 16, ∑ p : Fin 512, x (ix3 n k p) := by
  have hl : ∀ i ∈ Finset.univ.filter (fun i : S16x32x512.Idx => reducesTo_S16x32x512_S32_d0_2.drop i = ix1 k),
      ix3 (⟨(i 0).val, (i 0).isLt⟩ : Fin 16) k (⟨(i 2).val, (i 2).isLt⟩ : Fin 512) = i := by
    intro i hi
    have h1 : ((i 1 : Fin _) : Nat) = k.val := by
      rw [← drop02_val i]
      exact congrArg (fun j : S32.Idx => (j 0).val) (Finset.mem_filter.1 hi).2
    funext c; apply Fin.ext
    match c with
    | ⟨0, _⟩ => rfl
    | ⟨1, _⟩ => exact h1.symm
    | ⟨2, _⟩ => rfl
  refine (Finset.sum_nbij' (t := (Finset.univ : Finset (Fin 16 × Fin 512)))
      (fun i => ((⟨(i 0).val, (i 0).isLt⟩ : Fin 16), (⟨(i 2).val, (i 2).isLt⟩ : Fin 512)))
      (fun q => ix3 q.1 k q.2) ?_ ?_ hl ?_ ?_).trans
    (Fintype.sum_prod_type' fun (n : Fin 16) (p : Fin 512) => x (ix3 n k p))
  · intro i _; exact Finset.mem_univ _
  · intro q _
    refine Finset.mem_filter.2 ⟨Finset.mem_univ _, ?_⟩
    funext c; apply Fin.ext
    match c with
    | ⟨0, _⟩ => exact drop02_val (ix3 q.1 k q.2)
  · intro q _; rfl
  · intro i hi; exact congrArg x (hl i hi).symm

/-- The reference's sum over batch entries and points, at timestep k. -/
theorem hostReduceAdd02 (x : S16x32x512.Idx → EReal) (init : EReal) (k : Fin 32) :
    Ideal.hostReduceAdd reducesTo_S16x32x512_S32_d0_2 x init (ix1 k)
      = init + ∑ n : Fin 16, ∑ p : Fin 512, x (ix3 n k p) := by
  unfold Ideal.hostReduceAdd
  exact congrArg (init + ·) (sum_drop02 x k)

/-- A double sum of reals, coerced. -/
theorem coe_sum2 (f : Fin 16 → Fin 512 → ℝ) :
    ∑ n : Fin 16, ∑ p : Fin 512, ((f n p : ℝ) : EReal) = ((∑ n : Fin 16, ∑ p : Fin 512, f n p : ℝ) : EReal) := by
  rw [coe_sum]
  exact Finset.sum_congr rfl fun n _ => (coe_sum _ _).symm

/-! ## The two means per timestep -/

/-- The mean over batch entries and points of the distances to the nearest target, at timestep k. -/
theorem v31_eq (k : Fin 32) :
    val_main_v31 (F := Ideal) (inp a) (inp b) (ix1 k)
      = (((∑ n : Fin 16, ∑ i : Fin 512, toTarget a b n k i) / 8192 : ℝ) : EReal) := by
  rw [val_main_v31_apply, val_main_v30_apply, val_main_cst_9_apply]
  unfold val_main_v29
  simp only [Host.reduceAdd, Ideal.hostReduceAdd_def]
  rw [hostReduceAdd02, val_main_cst_8_apply]
  simp only [v28_eq a b, Ideal.hostDivf_def, Ideal.ofBits_def, Ideal.ofBits_zero_f32, zero_add, lit_8192]
  rw [coe_sum2, div_coe_coe _ _ (by norm_num)]

/-- The mean over batch entries and points of the distances to the nearest predicted point, at timestep k. -/
theorem v35_eq (k : Fin 32) :
    val_main_v35 (F := Ideal) (inp a) (inp b) (ix1 k)
      = (((∑ n : Fin 16, ∑ j : Fin 512, toPred a b n k j) / 8192 : ℝ) : EReal) := by
  rw [val_main_v35_apply, val_main_v34_apply, val_main_cst_12_apply]
  unfold val_main_v33
  simp only [Host.reduceAdd, Ideal.hostReduceAdd_def]
  rw [hostReduceAdd02, val_main_cst_11_apply]
  simp only [v32_eq a b, Ideal.hostDivf_def, Ideal.ofBits_def, Ideal.ofBits_zero_f32, zero_add, lit_8192]
  rw [coe_sum2, div_coe_coe _ _ (by norm_num)]

/-- Half the sum of the two means, at timestep k. -/
theorem v38_eq (k : Fin 32) :
    val_main_v38 (F := Ideal) (inp a) (inp b) (ix1 k)
      = (((1 / 2 : ℝ) * ((∑ n : Fin 16, ∑ i : Fin 512, toTarget a b n k i) / 8192
          + (∑ n : Fin 16, ∑ j : Fin 512, toPred a b n k j) / 8192) : ℝ) : EReal) := by
  rw [val_main_v38_apply, val_main_v37_apply, val_main_cst_13_apply, val_main_v36_apply, v31_eq, v35_eq]
  simp only [Ideal.mulf_def, Ideal.addf_def, Ideal.ofBits_def, lit_half]
  rw [← EReal.coe_add, ← EReal.coe_mul]

/-! ## The mean over timesteps -/

/-- Regrouping the sums: timesteps outermost and two divisions, against batch entries outermost and one factor. -/
theorem mean_algebra (T P : Fin 16 → Fin 32 → Fin 512 → ℝ) :
    (∑ k : Fin 32, (1 / 2 : ℝ) * ((∑ n : Fin 16, ∑ i : Fin 512, T n k i) / 8192
        + (∑ n : Fin 16, ∑ j : Fin 512, P n k j) / 8192)) / 32
      = (∑ n : Fin 16, ((∑ i : Fin 512, ∑ k : Fin 32, T n k i) + (∑ j : Fin 512, ∑ k : Fin 32, P n k j)))
          * (1 / 524288) := by
  have hA : ∀ Q : Fin 16 → Fin 32 → Fin 512 → ℝ,
      ∑ k : Fin 32, ∑ n : Fin 16, ∑ i : Fin 512, Q n k i = ∑ n : Fin 16, ∑ i : Fin 512, ∑ k : Fin 32, Q n k i := by
    intro Q
    rw [Finset.sum_comm]
    exact Finset.sum_congr rfl fun n _ => Finset.sum_comm
  rw [← Finset.mul_sum, Finset.sum_add_distrib, ← Finset.sum_div, ← Finset.sum_div, hA T, hA P, Finset.sum_add_distrib]
  ring

/-- The reference program's result, on real arrays, is the specification's loss. -/
theorem ref_value :
    val_main_v40 (F := Ideal) (fun i => ((a i : ℝ) : EReal)) (fun i => ((b i : ℝ) : EReal))
      = fun _ => ((loss a b : ℝ) : EReal) := by
  funext i
  show val_main_v40 (F := Ideal) (inp a) (inp b) i = _
  rw [val_main_v40_apply, val_main_v39_apply, val_main_cst_14_apply, val_main_cst_15_apply, sum_idx1]
  simp only [v38_eq a b, Ideal.hostDivf_def, Ideal.ofBits_def, Ideal.ofBits_zero_f32, zero_add, lit_32]
  rw [← coe_sum, div_coe_coe _ _ (by norm_num)]
  refine congrArg (fun r : ℝ => (r : EReal)) ?_
  exact mean_algebra (fun n k i => toTarget a b n k i) (fun n k j => toPred a b n k j)

end Chamfer.Ref

end
-- ==== Proof.lean ====
/- The five claims.

   The three frames: the two kernel programs by their generated frame certificates, the
   reference by its run with the result forgotten. The idealization is sound: every rewrite
   the ideal pass made drops a round trip through bf16, which is the identity on extended
   reals. The two idealized programs agree: with finite inputs both compute the symmetric
   chamfer loss of the real arrays (Chamfer.loss) — the kernel by thirty-two fused timesteps
   per batch entry whose per-entry totals the host adds and scales by 2^-19, the reference by
   the batched distance tensor, its two minima, and three nested means. -/
import proofs.«181722_g55396488184381_feedfinal_273_31_alg».proof.Defs
import proofs.«181722_g55396488184381_feedfinal_273_31_alg».proof.Proof.Gen.Kernel
import proofs.«181722_g55396488184381_feedfinal_273_31_alg».proof.Proof.Gen.Kernel.Skeleton
import proofs.«181722_g55396488184381_feedfinal_273_31_alg».proof.Proof.Gen.Kernel.Launch
import proofs.«181722_g55396488184381_feedfinal_273_31_alg».proof.Proof.Gen.Kernel.Points
import proofs.«181722_g55396488184381_feedfinal_273_31_alg».proof.Proof.Gen.Kernel.Frame
import proofs.«181722_g55396488184381_feedfinal_273_31_alg».proof.Proof.Gen.KernelIdeal
import proofs.«181722_g55396488184381_feedfinal_273_31_alg».proof.Proof.Gen.KernelIdeal.Skeleton
import proofs.«181722_g55396488184381_feedfinal_273_31_alg».proof.Proof.Gen.KernelIdeal.Launch
import proofs.«181722_g55396488184381_feedfinal_273_31_alg».proof.Proof.Gen.KernelIdeal.Points
import proofs.«181722_g55396488184381_feedfinal_273_31_alg».proof.Proof.Gen.KernelIdeal.Frame
import proofs.«181722_g55396488184381_feedfinal_273_31_alg».proof.Proof.Gen.ReferenceIdeal
import proofs.«181722_g55396488184381_feedfinal_273_31_alg».proof.Proof.Gen.Pre_finite_inputs
import proofs.«181722_g55396488184381_feedfinal_273_31_alg».proof.Proof.Gen.ReferenceIdeal.Read
import Idealize.ShloMosaic.Adequacy
import Idealize.ShloMosaic.Init
import proofs.«181722_g55396488184381_feedfinal_273_31_alg».proof.Proof.KFinal
import proofs.«181722_g55396488184381_feedfinal_273_31_alg».proof.Proof.Finite
import proofs.«181722_g55396488184381_feedfinal_273_31_alg».proof.Proof.RefLoss

noncomputable section

namespace Cert.Proof

open Idealize.ShloMosaic Idealize.SL.Sem

/-- Every rewrite of the ideal pass is the same one: widening back what was narrowed to bf16. -/
theorem preserves : Cert.preserves_Kernel_KernelIdeal := by
  have h := IdealRules.truncf_extf.statement Cert.KernelIdeal.S1x512 .f32 .bf16
  unfold Cert.preserves_Kernel_KernelIdeal
  simp only [and_self]
  exact h

/-- Both idealized programs end with the loss of the (real) argument arrays. -/
theorem algebraic : Cert.algebraic_KernelIdeal_ReferenceIdeal := by
  intro m g m' g' hpre hagree
  have hfin : ∀ c : Dev Cert.KernelIdeal.nD, ∃ a b : Chamfer.SArg.Idx → ℝ,
      m ((c.tc : Thread Cert.KernelIdeal.nD Cert.KernelIdeal.τ).loc Cert.KernelIdeal.main_arg0) = (fun i => ((a i : ℝ) : EReal))
      ∧ m ((c.tc : Thread Cert.KernelIdeal.nD Cert.KernelIdeal.τ).loc Cert.KernelIdeal.main_arg1) = (fun i => ((b i : ℝ) : EReal)) := by
    intro c
    obtain ⟨⟨a, ha⟩, ⟨b, hb⟩⟩ := Chamfer.real_of_pre _ _ (hpre c)
    exact ⟨a, b, ha, hb⟩
  choose a b ha hb using hfin
  refine ⟨fun c => fun _ => ((Chamfer.loss (a c) (b c) : ℝ) : EReal), Cert.KernelIdeal.Chamfer.run m g a b ha hb, ?_⟩
  refine (θ_run Cert.ReferenceIdeal.defs _ _).mono (fun r h c => ⟨?_, (h c).2⟩) (Cert.ReferenceIdeal.Value.run (F := Ideal) m' g')
  rw [(h c).1, Cert.ReferenceIdeal.Read.val_main_v40_eq, (hagree c).1, (hagree c).2, ha c, hb c]
  exact Chamfer.Ref.ref_value (a c) (b c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  preserves, algebraic⟩

end Cert.Proof

end
